-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S160000 : Shape := ⟨1, ![160000]⟩
abbrev S40000 : Shape := ⟨1, ![40000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024x256 .f32) (main_arg5 : FVec F S1024x256 .f32) (main_arg6 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x512 .f32) (main_arg1 : FVec F S512x1024 .f32) (main_arg2 : FVec F S512x1024 .f32) (main_arg3 : FVec F S1024 .f32) (main_arg4 : FVec F S1024x256 .f32) (main_arg5 : FVec F S1024x256 .f32) (main_arg6 : FVec F S256 .f32) (main_arg7 : IVec S160000 32) (main_arg8 : IVec S160000 32) (main_arg9 : IVec S40000 32) (main_arg10 : IVec S40000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S160000 : Shape := ⟨1, ![160000]⟩
abbrev S40000 : Shape := ⟨1, ![40000]⟩
abbrev S_ : Shape := ⟨0, ![]⟩
abbrev S160000x1 : Shape := ⟨2, ![160000, 1]⟩
abbrev S160000x512 : Shape := ⟨2, ![160000, 512]⟩
abbrev S20000x512 : Shape := ⟨2, ![20000, 512]⟩
abbrev S20000 : Shape := ⟨1, ![20000]⟩
abbrev S20000x1 : Shape := ⟨2, ![20000, 1]⟩
abbrev S1x1024 : Shape := ⟨2, ![1, 1024]⟩
abbrev S20000x1024 : Shape := ⟨2, ![20000, 1024]⟩
abbrev S1000x512 : Shape := ⟨2, ![1000, 512]⟩
abbrev S1000x1024 : Shape := ⟨2, ![1000, 1024]⟩
abbrev S20000x256 : Shape := ⟨2, ![20000, 256]⟩
abbrev S1000x256 : Shape := ⟨2, ![1000, 256]⟩
abbrev S40000x1 : Shape := ⟨2, ![40000, 1]⟩
abbrev S40000x256 : Shape := ⟨2, ![40000, 256]⟩
abbrev S5000x256 : Shape := ⟨2, ![5000, 256]⟩
abbrev S5000 : Shape := ⟨1, ![5000]⟩
abbrev S5000x1 : Shape := ⟨2, ![5000, 1]⟩
abbrev S5000x1024 : Shape := ⟨2, ![5000, 1024]⟩
abbrev S5120x1024 : Shape := ⟨2, ![5120, 1024]⟩
abbrev S5120x256 : Shape := ⟨2, ![5120, 256]⟩
abbrev S1x256 : Shape := ⟨2, ![1, 256]⟩
abbrev S512x256 : Shape := ⟨2, ![512, 256]⟩

abbrev nBuf : Space → Nat
  | .hbm => 75
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S1024x256, .f32⟩
  | .hbm, ⟨6, _⟩ => ⟨S256, .f32⟩
  | .hbm, ⟨7, _⟩ => ⟨S160000, .i32⟩
  | .hbm, ⟨8, _⟩ => ⟨S160000, .i32⟩
  | .hbm, ⟨9, _⟩ => ⟨S40000, .i32⟩
  | .hbm, ⟨10, _⟩ => ⟨S40000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x512, .f32⟩
  | .hbm, ⟨20, _⟩ => ⟨S_, .f32⟩
  | .hbm, ⟨21, _⟩ => ⟨S20000x512, .f32⟩
  | .hbm, ⟨22, _⟩ => ⟨S160000x1, .i32⟩
  | .hbm, ⟨23, _⟩ => ⟨S20000x512, .f32⟩
  | .hbm, ⟨24, _⟩ => ⟨S_, .f32⟩
  | .hbm, ⟨25, _⟩ => ⟨S160000, .f32⟩
  | .hbm, ⟨26, _⟩ => ⟨S_, .f32⟩
  | .hbm, ⟨27, _⟩ => ⟨S20000, .f32⟩
  | .hbm, ⟨28, _⟩ => ⟨S160000x1, .i32⟩
  | .hbm, ⟨29, _⟩ => ⟨S20000, .f32⟩
  | .hbm, ⟨30, _⟩ => ⟨S_, .f32⟩
  | .hbm, ⟨31, _⟩ => ⟨S20000, .f32⟩
  | .hbm, ⟨32, _⟩ => ⟨S20000, .f32⟩
  | .hbm, ⟨33, _⟩ => ⟨S20000x1, .f32⟩
  | .hbm, ⟨34, _⟩ => ⟨S20000x512, .f32⟩
  | .hbm, ⟨35, _⟩ => ⟨S20000x512, .f32⟩
  | .hbm, ⟨36, _⟩ => ⟨S20000x512, .f32⟩
  | .hbm, ⟨37, _⟩ => ⟨S1x1024, .f32⟩
  | .hbm, ⟨38, _⟩ => ⟨S20000x1024, .f32⟩
  | .hbm, ⟨39, _⟩ => ⟨S20000x256, .f32⟩
  | .hbm, ⟨40, _⟩ => ⟨S_, .i32⟩
  | .hbm, ⟨41, _⟩ => ⟨S40000, .i32⟩
  | .hbm, ⟨42, _⟩ => ⟨S40000, .i1⟩
  | .hbm, ⟨43, _⟩ => ⟨S_, .i32⟩
  | .hbm, ⟨44, _⟩ => ⟨S40000, .i32⟩
  | .hbm, ⟨45, _⟩ => ⟨S40000, .i32⟩
  | .hbm, ⟨46, _⟩ => ⟨S40000, .i32⟩
  | .hbm, ⟨47, _⟩ => ⟨S40000x1, .i32⟩
  | .hbm, ⟨48, _⟩ => ⟨S40000x256, .f32⟩
  | .hbm, ⟨49, _⟩ => ⟨S_, .f32⟩
  | .hbm, ⟨50, _⟩ => ⟨S5000x256, .f32⟩
  | .hbm, ⟨51, _⟩ => ⟨S40000x1, .i32⟩
  | .hbm, ⟨52, _⟩ => ⟨S5000x256, .f32⟩
  | .hbm, ⟨53, _⟩ => ⟨S_, .f32⟩
  | .hbm, ⟨54, _⟩ => ⟨S40000, .f32⟩
  | .hbm, ⟨55, _⟩ => ⟨S_, .f32⟩
  | .hbm, ⟨56, _⟩ => ⟨S5000, .f32⟩
  | .hbm, ⟨57, _⟩ => ⟨S40000x1, .i32⟩
  | .hbm, ⟨58, _⟩ => ⟨S5000, .f32⟩
  | .hbm, ⟨59, _⟩ => ⟨S_, .f32⟩
  | .hbm, ⟨60, _⟩ => ⟨S5000, .f32⟩
  | .hbm, ⟨61, _⟩ => ⟨S5000, .f32⟩
  | .hbm, ⟨62, _⟩ => ⟨S5000x1, .f32⟩
  | .hbm, ⟨63, _⟩ => ⟨S5000x256, .f32⟩
  | .hbm, ⟨64, _⟩ => ⟨S5000x256, .f32⟩
  | .hbm, ⟨65, _⟩ => ⟨S5000x1024, .f32⟩
  | .hbm, ⟨66, _⟩ => ⟨S_, .i32⟩
  | .hbm, ⟨67, _⟩ => ⟨S_, .f32⟩
  | .hbm, ⟨68, _⟩ => ⟨S5120x1024, .f32⟩
  | .hbm, ⟨69, _⟩ => ⟨S_, .i32⟩
  | .hbm, ⟨70, _⟩ => ⟨S_, .f32⟩
  | .hbm, ⟨71, _⟩ => ⟨S5120x256, .f32⟩
  | .hbm, ⟨72, _⟩ => ⟨S1x256, .f32⟩
  | .hbm, ⟨73, _⟩ => ⟨S5120x256, .f32⟩
  | .hbm, ⟨74, _⟩ => ⟨S5000x256, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1000x1024, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1024x256, .f32⟩
  | .local _ .vmem, ⟨12, _⟩ => ⟨S1000x256, .f32⟩
  | .local _ .vmem, ⟨13, _⟩ => ⟨S1000x256, .f32⟩
  | .local _ .vmem, ⟨14, _⟩ => ⟨S512x1024, .f32⟩
  | .local _ .vmem, ⟨15, _⟩ => ⟨S512x1024, .f32⟩
  | .local _ .vmem, ⟨16, _⟩ => ⟨S512x256, .f32⟩
  | .local _ .vmem, ⟨17, _⟩ => ⟨S512x256, .f32⟩
  | .local _ .vmem, ⟨18, _⟩ => ⟨S1024x256, .f32⟩
  | .local _ .vmem, ⟨19, _⟩ => ⟨S1x256, .f32⟩
  | .local _ .vmem, ⟨20, _⟩ => ⟨S512x256, .f32⟩
  | .local _ .vmem, ⟨21, _⟩ => ⟨S512x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_call0_v0 : Ref sig .tc := ⟨.hbm, 67, rfl⟩
abbrev main_v43 : Ref sig .tc := ⟨.hbm, 68, rfl⟩
abbrev main_c_11 : Ref sig .tc := ⟨.hbm, 69, rfl⟩
abbrev main_call1_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  slices_S100000x512_S20000x512_0_0 : S100000x512.Slices ![0, 0] S20000x512
  shapeCasts_S1024_S1x1024 : S1024.ShapeCasts S1x1024
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x256_S1024x256_0_0 : ∀ a, (![0, 0] : Fin 2 → Nat) a + S1024x256.size a ≤ S1024x256.size a
  h_S1024x256 : 0 < S1024x256.numel
  inb_S1000x256_S1000x256_0_0 : ∀ a, (![0, 0] : Fin 2 → Nat) a + S1000x256.size a ≤ S1000x256.size a
  h_S1000x256 : 0 < S1000x256.numel
  bcast_S_S40000 : S_.BroadcastsInDim S40000 (![] : Fin 0 → Fin S40000.rank)
  bcast_S40000_S40000x1_0 : S40000.BroadcastsInDim S40000x1 (![0] : Fin 1 → Fin S40000x1.rank)
  bcast_S_S5000x256 : S_.BroadcastsInDim S5000x256 (![] : Fin 0 → Fin S5000x256.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  slices_S20000x1024_S5000x1024_0_0 : S20000x1024.Slices ![0, 0] S5000x1024
  pads_S5000x1024_S5120x1024_01200_000 : S5000x1024.Pads (![0, 0] : Fin 2 → Nat) ![120, 0] ![0, 0] S5120x1024
  h_S_ : 0 < S_.numel
  pads_S5000x256_S5120x256_01200_000 : S5000x256.Pads (![0, 0] : Fin 2 → Nat) ![120, 0] ![0, 0] S5120x256
  shapeCasts_S256_S1x256 : S256.ShapeCasts S1x256
  shapeCasts_S512x1024_S512x1024 : S512x1024.ShapeCasts S512x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  slices_S5120x256_S5000x256_0_0 : S5120x256.Slices ![0, 0] S5000x256
  gather_S100000x512_S160000x1_S160000x512_1_0_n_n_0_1_1512_wf : GatherDims.WF S100000x512 S160000x1 S160000x512 [1] [0] [] [0] [] 1 ![1, 512]
  scatter_S20000x512_S160000x1_S160000x512_1_0_0_1_wf : ScatterDims.WF S20000x512 S160000x1 S160000x512 [1] [0] [0] 1
  scatter_S20000_S160000x1_S160000_n_0_0_1_wf : ScatterDims.WF S20000 S160000x1 S160000 [] [0] [0] 1
  dot_S1000x512_S512x1024_S1000x1024_1_0_0_1_n_n_wf : DotDims.WF S1000x512 S512x1024 S1000x1024 [1] [0] [0] [1] [] []
  dot_S1000x1024_S1024x256_S1000x256_1_0_0_1_n_n_wf : DotDims.WF S1000x1024 S1024x256 S1000x256 [1] [0] [0] [1] [] []
  gather_S20000x256_S40000x1_S40000x256_1_0_n_n_0_1_1256_wf : GatherDims.WF S20000x256 S40000x1 S40000x256 [1] [0] [] [0] [] 1 ![1, 256]
  scatter_S5000x256_S40000x1_S40000x256_1_0_0_1_wf : ScatterDims.WF S5000x256 S40000x1 S40000x256 [1] [0] [0] 1
  scatter_S5000_S40000x1_S40000_n_0_0_1_wf : ScatterDims.WF S5000 S40000x1 S40000 [] [0] [0] 1
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S20000x512.size a
  hwx0_1 : ∀ i : grid0.Coords, EltTy.bits .f32 = 32 ∨ (Rect.block (s := S20000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S20000x1024.size a
  hwx0_5 : ∀ i : grid0.Coords, EltTy.bits .f32 = 32 ∨ (Rect.block (s := S20000x1024) S1000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S20000x1024.size a
  hwx1_0 : ∀ i : grid1.Coords, EltTy.bits .f32 = 32 ∨ (Rect.block (s := S20000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S20000x256.size a
  hwx1_2 : ∀ i : grid1.Coords, EltTy.bits .f32 = 32 ∨ (Rect.block (s := S20000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S5120x1024.size a
  hwx2_0 : ∀ i : grid2.Coords, EltTy.bits .f32 = 32 ∨ (Rect.block (s := S5120x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S5120x256.size a
  hwx2_1 : ∀ i : grid2.Coords, EltTy.bits .f32 = 32 ∨ (Rect.block (s := S5120x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S1024x256.size a
  hwx2_2 : ∀ i : grid2.Coords, EltTy.bits .f32 = 32 ∨ (Rect.block (s := S1024x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S5120x256.size a
  hwx2_4 : ∀ i : grid2.Coords, EltTy.bits .f32 = 32 ∨ (Rect.block (s := S5120x256) S512x256.size (cc2_transform_4 i) (hinb2_4 i)).WholeWords (EltTy.packing .f32)

variable [Facts₀]

def gather_S100000x512_S160000x1_S160000x512_1_0_n_n_0_1_1512 : GatherDims S100000x512 S160000x1 S160000x512 where
  offsetDims := [1]
  collapsedSliceDims := [0]
  operandBatchingDims := []
  startIndicesBatchingDims := []
  startIndexMap := [0]
  indexVectorDim := 1
  sliceSizes := ![1, 512]
  wf := gather_S100000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def gather_S20000x256_S40000x1_S40000x256_1_0_n_n_0_1_1256 : GatherDims S20000x256 S40000x1 S40000x256 where
  offsetDims := [1]
  collapsedSliceDims := [0]
  operandBatchingDims := []
  startIndicesBatchingDims := []
  startIndexMap := [0]
  indexVectorDim := 1
  sliceSizes := ![1, 256]
  wf := gather_S20000x256_S40000x1_S40000x256_1_0_n_n_0_1_1256_wf
def scatter_S5000x256_S40000x1_S40000x256_1_0_0_1 : ScatterDims S5000x256 S40000x1 S40000x256 where
  updateWindowDims := [1]
  insertedWindowDims := [0]
  scatterDimsToOperandDims := [0]
  indexVectorDim := 1
  wf := scatter_S5000x256_S40000x1_S40000x256_1_0_0_1_wf
def scatter_S5000_S40000x1_S40000_n_0_0_1 : ScatterDims S5000 S40000x1 S40000 where
  updateWindowDims := []
  insertedWindowDims := [0]
  scatterDimsToOperandDims := [0]
  indexVectorDim := 1
  wf := scatter_S5000_S40000x1_S40000_n_0_0_1_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v19) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S512x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S160000 : Shape := ⟨1, ![160000]⟩
abbrev S40000 : Shape := ⟨1, ![40000]⟩
abbrev S20000x512 : Shape := ⟨2, ![20000, 512]⟩
abbrev S_ : Shape := ⟨0, ![]⟩
abbrev S160000x1 : Shape := ⟨2, ![160000, 1]⟩
abbrev S160000x512 : Shape := ⟨2, ![160000, 512]⟩
abbrev S20000 : Shape := ⟨1, ![20000]⟩
abbrev S20000x1 : Shape := ⟨2, ![20000, 1]⟩
abbrev S20000x1024 : Shape := ⟨2, ![20000, 1024]⟩
abbrev S1x1024 : Shape := ⟨2, ![1, 1024]⟩
abbrev S5000x1024 : Shape := ⟨2, ![5000, 1024]⟩
abbrev S40000x1 : Shape := ⟨2, ![40000, 1]⟩
abbrev S40000x1024 : Shape := ⟨2, ![40000, 1024]⟩
abbrev S5000 : Shape := ⟨1, ![5000]⟩
abbrev S5000x1 : Shape := ⟨2, ![5000, 1]⟩
abbrev S5000x256 : Shape := ⟨2, ![5000, 256]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S1024x256, .f32⟩
  | .hbm, ⟨6, _⟩ => ⟨S256, .f32⟩
  | .hbm, ⟨7, _⟩ => ⟨S160000, .i32⟩
  | .hbm, ⟨8, _⟩ => ⟨S160000, .i32⟩
  | .hbm, ⟨9, _⟩ => ⟨S40000, .i32⟩
  | .hbm, ⟨10, _⟩ => ⟨S40000, .i32⟩
  | .hbm, ⟨11, _⟩ => ⟨S20000x512, .f32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x512, .f32⟩
  | .hbm, ⟨21, _⟩ => ⟨S_, .f32⟩
  | .hbm, ⟨22, _⟩ => ⟨S20000x512, .f32⟩
  | .hbm, ⟨23, _⟩ => ⟨S160000x1, .i32⟩
  | .hbm, ⟨24, _⟩ => ⟨S20000x512, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S20000, .f32⟩
  | .hbm, ⟨29, _⟩ => ⟨S160000x1, .i32⟩
  | .hbm, ⟨30, _⟩ => ⟨S20000, .f32⟩
  | .hbm, ⟨31, _⟩ => ⟨S_, .f32⟩
  | .hbm, ⟨32, _⟩ => ⟨S20000, .f32⟩
  | .hbm, ⟨33, _⟩ => ⟨S20000, .f32⟩
  | .hbm, ⟨34, _⟩ => ⟨S20000x1, .f32⟩
  | .hbm, ⟨35, _⟩ => ⟨S20000x512, .f32⟩
  | .hbm, ⟨36, _⟩ => ⟨S20000x512, .f32⟩
  | .hbm, ⟨37, _⟩ => ⟨S20000x1024, .f32⟩
  | .hbm, ⟨38, _⟩ => ⟨S20000x1024, .f32⟩
  | .hbm, ⟨39, _⟩ => ⟨S20000x1024, .f32⟩
  | .hbm, ⟨40, _⟩ => ⟨S1x1024, .f32⟩
  | .hbm, ⟨41, _⟩ => ⟨S20000x1024, .f32⟩
  | .hbm, ⟨42, _⟩ => ⟨S20000x1024, .f32⟩
  | .hbm, ⟨43, _⟩ => ⟨S_, .f32⟩
  | .hbm, ⟨44, _⟩ => ⟨S20000x1024, .f32⟩
  | .hbm, ⟨45, _⟩ => ⟨S20000x1024, .f32⟩
  | .hbm, ⟨46, _⟩ => ⟨S5000x1024, .f32⟩
  | .hbm, ⟨47, _⟩ => ⟨S_, .i32⟩
  | .hbm, ⟨48, _⟩ => ⟨S40000, .i32⟩
  | .hbm, ⟨49, _⟩ => ⟨S40000, .i1⟩
  | .hbm, ⟨50, _⟩ => ⟨S_, .i32⟩
  | .hbm, ⟨51, _⟩ => ⟨S40000, .i32⟩
  | .hbm, ⟨52, _⟩ => ⟨S40000, .i32⟩
  | .hbm, ⟨53, _⟩ => ⟨S40000, .i32⟩
  | .hbm, ⟨54, _⟩ => ⟨S40000x1, .i32⟩
  | .hbm, ⟨55, _⟩ => ⟨S40000x1024, .f32⟩
  | .hbm, ⟨56, _⟩ => ⟨S_, .f32⟩
  | .hbm, ⟨57, _⟩ => ⟨S5000x1024, .f32⟩
  | .hbm, ⟨58, _⟩ => ⟨S40000x1, .i32⟩
  | .hbm, ⟨59, _⟩ => ⟨S5000x1024, .f32⟩
  | .hbm, ⟨60, _⟩ => ⟨S_, .f32⟩
  | .hbm, ⟨61, _⟩ => ⟨S40000, .f32⟩
  | .hbm, ⟨62, _⟩ => ⟨S_, .f32⟩
  | .hbm, ⟨63, _⟩ => ⟨S5000, .f32⟩
  | .hbm, ⟨64, _⟩ => ⟨S40000x1, .i32⟩
  | .hbm, ⟨65, _⟩ => ⟨S5000, .f32⟩
  | .hbm, ⟨66, _⟩ => ⟨S_, .f32⟩
  | .hbm, ⟨67, _⟩ => ⟨S5000, .f32⟩
  | .hbm, ⟨68, _⟩ => ⟨S5000, .f32⟩
  | .hbm, ⟨69, _⟩ => ⟨S5000x1, .f32⟩
  | .hbm, ⟨70, _⟩ => ⟨S5000x1024, .f32⟩
  | .hbm, ⟨71, _⟩ => ⟨S5000x1024, .f32⟩
  | .hbm, ⟨72, _⟩ => ⟨S5000x256, .f32⟩
  | .hbm, ⟨73, _⟩ => ⟨S5000x256, .f32⟩
  | .hbm, ⟨74, _⟩ => ⟨S5000x256, .f32⟩
  | .hbm, ⟨75, _⟩ => ⟨S1x256, .f32⟩
  | .hbm, ⟨76, _⟩ => ⟨S5000x256, .f32⟩
  | .hbm, ⟨77, _⟩ => ⟨S5000x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S100000x512_S20000x512_0_0 : S100000x512.Slices ![0, 0] S20000x512
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  slices_S20000x1024_S5000x1024_0_0 : S20000x1024.Slices ![0, 0] S5000x1024
  bcast_S_S40000 : S_.BroadcastsInDim S40000 (![] : Fin 0 → Fin S40000.rank)
  bcast_S40000_S40000x1_0 : S40000.BroadcastsInDim S40000x1 (![0] : Fin 1 → Fin S40000x1.rank)
  bcast_S_S5000x1024 : S_.BroadcastsInDim S5000x1024 (![] : Fin 0 → Fin S5000x1024.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x1024_0_1 : S5000x1.BroadcastsInDim S5000x1024 (![0, 1] : Fin 2 → Fin S5000x1024.rank)
  bcast_S256_S1x256_1 : S256.BroadcastsInDim S1x256 (![1] : Fin 1 → Fin S1x256.rank)
  bcast_S1x256_S5000x256_0_1 : S1x256.BroadcastsInDim S5000x256 (![0, 1] : Fin 2 → Fin S5000x256.rank)
  gather_S100000x512_S160000x1_S160000x512_1_0_n_n_0_1_1512_wf : GatherDims.WF S100000x512 S160000x1 S160000x512 [1] [0] [] [0] [] 1 ![1, 512]
  scatter_S20000x512_S160000x1_S160000x512_1_0_0_1_wf : ScatterDims.WF S20000x512 S160000x1 S160000x512 [1] [0] [0] 1
  scatter_S20000_S160000x1_S160000_n_0_0_1_wf : ScatterDims.WF S20000 S160000x1 S160000 [] [0] [0] 1
  dot_S20000x512_S512x1024_S20000x1024_1_0_0_1_n_n_wf : DotDims.WF S20000x512 S512x1024 S20000x1024 [1] [0] [0] [1] [] []
  gather_S20000x1024_S40000x1_S40000x1024_1_0_n_n_0_1_11024_wf : GatherDims.WF S20000x1024 S40000x1 S40000x1024 [1] [0] [] [0] [] 1 ![1, 1024]
  scatter_S5000x1024_S40000x1_S40000x1024_1_0_0_1_wf : ScatterDims.WF S5000x1024 S40000x1 S40000x1024 [1] [0] [0] 1
  scatter_S5000_S40000x1_S40000_n_0_0_1_wf : ScatterDims.WF S5000 S40000x1 S40000 [] [0] [0] 1
  dot_S5000x1024_S1024x256_S5000x256_1_0_0_1_n_n_wf : DotDims.WF S5000x1024 S1024x256 S5000x256 [1] [0] [0] [1] [] []

variable [Facts₀]

def gather_S100000x512_S160000x1_S160000x512_1_0_n_n_0_1_1512 : GatherDims S100000x512 S160000x1 S160000x512 where
  offsetDims := [1]
  collapsedSliceDims := [0]
  operandBatchingDims := []
  startIndicesBatchingDims := []
  startIndexMap := [0]
  indexVectorDim := 1
  sliceSizes := ![1, 512]
  wf := gather_S100000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S20000x512_S512x1024_S20000x1024_1_0_0_1_n_n : DotDims S20000x512 S512x1024 S20000x1024 where
  lhsContracting := [1]
  rhsContracting := [0]
  lhsNonContracting := [0]
  rhsNonContracting := [1]
  lhsBatch := []
  rhsBatch := []
  wf := dot_S20000x512_S512x1024_S20000x1024_1_0_0_1_n_n_wf
def gather_S20000x1024_S40000x1_S40000x1024_1_0_n_n_0_1_11024 : GatherDims S20000x1024 S40000x1 S40000x1024 where
  offsetDims := [1]
  collapsedSliceDims := [0]
  operandBatchingDims := []
  startIndicesBatchingDims := []
  startIndexMap := [0]
  indexVectorDim := 1
  sliceSizes := ![1, 1024]
  wf := gather_S20000x1024_S40000x1_S40000x1024_1_0_n_n_0_1_11024_wf
def scatter_S5000x1024_S40000x1_S40000x1024_1_0_0_1 : ScatterDims S5000x1024 S40000x1 S40000x1024 where
  updateWindowDims := [1]
  insertedWindowDims := [0]
  scatterDimsToOperandDims := [0]
  indexVectorDim := 1
  wf := scatter_S5000x1024_S40000x1_S40000x1024_1_0_0_1_wf
def scatter_S5000_S40000x1_S40000_n_0_0_1 : ScatterDims S5000 S40000x1 S40000 where
  updateWindowDims := []
  insertedWindowDims := [0]
  scatterDimsToOperandDims := [0]
  indexVectorDim := 1
  wf := scatter_S5000_S40000x1_S40000_n_0_0_1_wf
def dot_S5000x1024_S1024x256_S5000x256_1_0_0_1_n_n : DotDims S5000x1024 S1024x256 S5000x256 where
  lhsContracting := [1]
  rhsContracting := [0]
  lhsNonContracting := [0]
  rhsNonContracting := [1]
  lhsBatch := []
  rhsBatch := []
  wf := dot_S5000x1024_S1024x256_S5000x256_1_0_0_1_n_n_wf

class Facts : Prop extends Facts₀ where

variable [Facts]
-- ==== Proof.KernelRun.lean ====
/-
  The kernel program's run with its result named.

  The program is three pipelined regions among stretches of host operations. Its generated frame certificate
  launches the segments one after another and ends with every unscoped buffer of a core at the contents the fold
  of the segments computes from the launch memory (`Gen.W10`): a stretch of host operations applies its operations,
  a region replaces its arrays by what its write-backs leave and keeps every other buffer. The frame claim reads
  only the argument arrays off that final state. Here the same launch is read once more at the result buffer as
  well: every weakly fair execution terminates, nothing faults, the result array ends at `Gen.W10` of the launch
  memory read at the result's buffer, and the arguments end as launched.
-/
import proofs.«181733_j75350906241117_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates without a fault; the
    result array then holds the segments' fold of the launch memory, read at the result's buffer, and every
    argument array is as launched. -/
theorem run_named : θ_run defs (onTc (τ := τ) (main (F := F))) ⟨m, fun _ => 0, ρ⟩ (fun r => ∀ c : Dev nD,
      r.2.mem ((c.tc : Thread nD τ).loc main_v47) = W10 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v47 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.FiniteInputs.lean ====
import proofs.«181733_j75350906241117_2_alg».proof.Defs
import proofs.«181733_j75350906241117_2_alg».proof.Proof.Gen.Pre_finite_inputs
import Idealize.ShloMosaic.Lib.ReduceAll
import Idealize.ShloMosaic.Lib.ValueIdx

/-!
# Finite inputs are real numbers

The precondition of the claim is a conjunction, over the seven float arguments, of
"every entry `v` satisfies `|v| < +∞`", where `|v|` is `max v (-v)`, `+∞` is the value of the
word `0x7F800000`, and "every entry" is a reduction by `and` of the entrywise comparisons from the
constant `1`. Read over the extended reals this says exactly that no entry is `+∞` or `-∞`: every
entry is (the image of) a real number. The four integer arguments are not constrained.
-/

namespace Cert.Finite

open Idealize.ShloMosaic

/-- The word `0x7F800000` (sign 0, exponent all ones, significand 0) denotes `+∞`. -/
theorem inf_word : Ideal.ofBits .f32 0x7F800000#32 = (⊤ : EReal) := by
  simp [Ideal.ofBits, Ideal.ieee]

/-- An extended real `v` with `max v (-v) < +∞` is a real number: at `v = -∞` the maximum is
    `-(-∞) = +∞`, at `v = +∞` it is `+∞`, and neither is below `+∞`. -/
theorem real_of_abs_lt_inf (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | top => simp [Ideal.cmp] at h
  | coe r => exact ⟨r, rfl⟩

/-- A shape of rank zero has exactly one index. -/
local instance subsingleton_scalar_idx : Subsingleton Cert.Pre_finite_inputs.S_.Idx :=
  ⟨fun a b => funext fun d => d.elim0⟩

/-- One conjunct of the precondition, for an array `v` of any shape: if the reduction by `and` of the
    entrywise comparisons `|v i| < +∞` over all axes is `1`, then every comparison is `1`, so every
    entry of `v` is a real number. -/
theorem all_real {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf v)
            (broadcastInDim s ![] hb (constant (F := Ideal) Cert.Pre_finite_inputs.S_ .f32 0x7F800000#32)))
          init hr hu ValueIdx.ix0 = 1#1) :
    ∀ i, ∃ r : ℝ, v i = (r : EReal) := fun i =>
  real_of_abs_lt_inf (v i) (Host.reduce_andi_all _ init hr hu ValueIdx.ix0 e i)

open Cert.Pre_finite_inputs in
/-- The precondition, all ones, gives: every entry of each of the seven float arguments is a real
    number. The conjunction `((((((c₀ ∧ c₁) ∧ c₂) ∧ c₃) ∧ c₄) ∧ c₅) ∧ c₆)` of the seven reductions is
    split from the outside in; each conjunct is `all_real`. -/
theorem inputs_real [hPre : Cert.Pre_finite_inputs.Facts]
    (x : FVec Ideal S100000x512 .f32) (ws1 wn1 : FVec Ideal S512x1024 .f32) (b1 : FVec Ideal S1024 .f32)
    (ws2 wn2 : FVec Ideal S1024x256 .f32) (b2 : FVec Ideal S256 .f32)
    (e0s e0d : IVec S160000 32) (e1s e1d : IVec S40000 32)
    (h : Cert.Pre_finite_inputs.fn (F := Ideal) x ws1 wn1 b1 ws2 wn2 b2 e0s e0d e1s e1d = fun _ => 1#1) :
    (∀ i, ∃ r : ℝ, x i = (r : EReal)) ∧ (∀ i, ∃ r : ℝ, ws1 i = (r : EReal)) ∧ (∀ i, ∃ r : ℝ, wn1 i = (r : EReal))
      ∧ (∀ i, ∃ r : ℝ, b1 i = (r : EReal)) ∧ (∀ i, ∃ r : ℝ, ws2 i = (r : EReal)) ∧ (∀ i, ∃ r : ℝ, wn2 i = (r : EReal))
      ∧ (∀ i, ∃ r : ℝ, b2 i = (r : EReal)) := by
  have h0 := congrFun h ValueIdx.ix0
  dsimp only [Cert.Pre_finite_inputs.fn, Cert.Pre_finite_inputs.fn_part1, andi] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real x _ _ _ _ e0, all_real ws1 _ _ _ _ e1, all_real wn1 _ _ _ _ e2, all_real b1 _ _ _ _ e3,
    all_real ws2 _ _ _ _ e4, all_real wn2 _ _ _ _ e5, all_real b2 _ _ _ _ e6⟩

open Idealize.SL.Sem Cert.Pre_finite_inputs in
/-- The same for the kernel's memory: on every device, each float argument array of a memory that
    satisfies the precondition has only real entries. The indices are those of the literal shapes. -/
theorem of_pre [hPre : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i : S100000x512.Idx, ∃ r : ℝ, m ((c.tc : Thread Cert.KernelIdeal.nD Cert.KernelIdeal.τ).loc Cert.KernelIdeal.main_arg0) i = (r : EReal))
      ∧ (∀ i : S512x1024.Idx, ∃ r : ℝ, m ((c.tc : Thread Cert.KernelIdeal.nD Cert.KernelIdeal.τ).loc Cert.KernelIdeal.main_arg1) i = (r : EReal))
      ∧ (∀ i : S512x1024.Idx, ∃ r : ℝ, m ((c.tc : Thread Cert.KernelIdeal.nD Cert.KernelIdeal.τ).loc Cert.KernelIdeal.main_arg2) i = (r : EReal))
      ∧ (∀ i : S1024.Idx, ∃ r : ℝ, m ((c.tc : Thread Cert.KernelIdeal.nD Cert.KernelIdeal.τ).loc Cert.KernelIdeal.main_arg3) i = (r : EReal))
      ∧ (∀ i : S1024x256.Idx, ∃ r : ℝ, m ((c.tc : Thread Cert.KernelIdeal.nD Cert.KernelIdeal.τ).loc Cert.KernelIdeal.main_arg4) i = (r : EReal))
      ∧ (∀ i : S1024x256.Idx, ∃ r : ℝ, m ((c.tc : Thread Cert.KernelIdeal.nD Cert.KernelIdeal.τ).loc Cert.KernelIdeal.main_arg5) i = (r : EReal))
      ∧ (∀ i : S256.Idx, ∃ r : ℝ, m ((c.tc : Thread Cert.KernelIdeal.nD Cert.KernelIdeal.τ).loc Cert.KernelIdeal.main_arg6) i = (r : EReal)) :=
  inputs_real _ _ _ _ _ _ _ _ _ _ _ (hm c)

end Cert.Finite
-- ==== Proof.SageSpec.lean ====
/-
  A two-layer mean-aggregating graph network, stage by stage, index by index on the extended reals.

  A layer sends a node's own features through one weight matrix, the mean of its in-neighbours' features through
  another, and adds a bias. Three stages of that computation are dense and have a fixed rectangular shape; each is
  stated here as ONE function of whole arrays, read at an index, with every contraction written as a sum over the
  contracted coordinate:

  * `hidden`: the first layer on the 20000 destination nodes, followed by the positive part —
    `h[i, j] = max (Σ_k d[i,k]·ws[k,j] + Σ_k n[i,k]·wn[k,j] + b[j]) 0`, where `d` holds the nodes' own features and
    `n` their neighbour means (512 features in, 1024 out);
  * `projected`: the hidden features sent through the second layer's neighbour weights before any aggregation —
    `p[i, j] = Σ_k h[i,k]·w[k,j]` (1024 in, 256 out);
  * `output`: the second layer's combination for rows whose neighbour part has ALREADY been projected and averaged —
    `o[i, j] = Σ_k hd[i,k]·ws[k,j] + np[i,j] + b[j]`, on 5120 rows (the 5000 destination rows and 120 rows of padding).

  The bias arrives as a one-row matrix (a vector reshaped to `[1, C]`), which is how both stages receive it.
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with `n` rows and `k` columns (the float arrays of the programs read at `Ideal`). -/
abbrev Mat (n k : Nat) : Type := FVec Ideal ⟨2, ![n, k]⟩ .f32

/-- The first layer with its positive part, on the 20000 destination nodes: own features `d` against `ws`, neighbour
    means `n` against `wn`, the bias row `b`, and `max · 0`. -/
def hidden (d n : Mat 20000 512) (ws wn : Mat 512 1024) (b : Mat 1 1024) : Mat 20000 1024 :=
  fun i => max (((∑ k : Fin 512, d (ix2 (i 0) k) * ws (ix2 k (i 1)))
      + ∑ k : Fin 512, n (ix2 (i 0) k) * wn (ix2 k (i 1))) + b (ix2 0 (i 1))) 0

/-- The hidden features against the second layer's neighbour weights, row by row. -/
def projected (h : Mat 20000 1024) (w : Mat 1024 256) : Mat 20000 256 :=
  fun i => ∑ k : Fin 1024, h (ix2 (i 0) k) * w (ix2 k (i 1))

/-- The second layer's combination on 5120 rows: own hidden features `hd` against `ws`, plus the neighbour part `np`
    (already projected and averaged), plus the bias row `b`. -/
def output (hd : Mat 5120 1024) (np : Mat 5120 256) (ws : Mat 1024 256) (b : Mat 1 256) : Mat 5120 256 :=
  fun i => ((∑ k : Fin 1024, hd (ix2 (i 0) k) * ws (ix2 k (i 1))) + np i) + b (ix2 0 (i 1))

theorem hidden_apply (d n : Mat 20000 512) (ws wn : Mat 512 1024) (b : Mat 1 1024) (p : Fin 20000) (q : Fin 1024) :
    hidden d n ws wn b (ix2 p q)
      = max (((∑ k : Fin 512, d (ix2 p k) * ws (ix2 k q)) + ∑ k : Fin 512, n (ix2 p k) * wn (ix2 k q)) + b (ix2 0 q)) 0 := rfl

theorem projected_apply (h : Mat 20000 1024) (w : Mat 1024 256) (p : Fin 20000) (q : Fin 256) :
    projected h w (ix2 p q) = ∑ k : Fin 1024, h (ix2 p k) * w (ix2 k q) := rfl

theorem output_apply (hd : Mat 5120 1024) (np : Mat 5120 256) (ws : Mat 1024 256) (b : Mat 1 256) (p : Fin 5120) (q : Fin 256) :
    output hd np ws b (ix2 p q) = ((∑ k : Fin 1024, hd (ix2 p k) * ws (ix2 k q)) + np (ix2 p q)) + b (ix2 0 q) := rfl

end Cert.Sage

end
-- ==== Proof.RegionHidden.lean ====
/-
  The first layer's region, from its blocks to its array.

  The region runs over 20 grid points. Point `t` holds rows `1000·t … 1000·t + 999` of the nodes' own features and of
  their neighbour means (512 columns each), both 512 × 1024 weight matrices whole and the bias row whole, and computes
  for its 1000 rows

      max (own · W_self + mean · W_neigh + bias) 0 .

  Read at an entry, each product is a sum over the 512 shared coordinates, the bias row is repeated down the rows, and
  the positive part is taken entry by entry; so row `p` of point `t`'s block is row `1000·t + p` of the whole-array
  function `Cert.Sage.hidden` of the five arrays as the region finds them. The twenty blocks tile the 20000 rows, hence
  the array the region leaves IS `hidden` of those arrays (`hidden_array`).
-/
import proofs.«181733_j75350906241117_2_alg».proof.Proof.Gen.KernelIdeal.Frame
import proofs.«181733_j75350906241117_2_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## A block of 1000 rows against a weight matrix, at an entry

The contraction has one shared coordinate, of extent 512: at output entry (row, column) and shared coordinate `k` the
left operand is read at (row, k) and the right operand at (k, column). -/

/-- The left operand's row is the output entry's row. -/
theorem hidden_lhs_0 (i : S1000x1024.Idx) (s : dot_S1000x512_S512x1024_S1000x1024_1_0_0_1_n_n.contr.Idx) :
    (dot_S1000x512_S512x1024_S1000x1024_1_0_0_1_n_n.lhsIdx i s 0).val = (i 0).val := by
  unfold DotDims.lhsIdx
  rw [dif_neg (show ¬(0 : Fin S1000x512.rank) ∈ dot_S1000x512_S512x1024_S1000x1024_1_0_0_1_n_n.lhsBatch by decide), dif_pos (show (0 : Fin S1000x512.rank) ∈ dot_S1000x512_S512x1024_S1000x1024_1_0_0_1_n_n.lhsNonContracting by decide)]
  rfl
/-- The left operand's column is the shared coordinate. -/
theorem hidden_lhs_1 (i : S1000x1024.Idx) (s : dot_S1000x512_S512x1024_S1000x1024_1_0_0_1_n_n.contr.Idx) :
    (dot_S1000x512_S512x1024_S1000x1024_1_0_0_1_n_n.lhsIdx i s 1).val = (s ⟨0, by decide⟩).val :=
  dot_S1000x512_S512x1024_S1000x1024_1_0_0_1_n_n.lhsIdx_val_of_single rfl i s
/-- The right operand's row is the shared coordinate. -/
theorem hidden_rhs_0 (i : S1000x1024.Idx) (s : dot_S1000x512_S512x1024_S1000x1024_1_0_0_1_n_n.contr.Idx) :
    (dot_S1000x512_S512x1024_S1000x1024_1_0_0_1_n_n.rhsIdx i s 0).val = (s ⟨0, by decide⟩).val :=
  dot_S1000x512_S512x1024_S1000x1024_1_0_0_1_n_n.rhsIdx_val_of_single rfl i s
/-- The right operand's column is the output entry's column. -/
theorem hidden_rhs_1 (i : S1000x1024.Idx) (s : dot_S1000x512_S512x1024_S1000x1024_1_0_0_1_n_n.contr.Idx) :
    (dot_S1000x512_S512x1024_S1000x1024_1_0_0_1_n_n.rhsIdx i s 1).val = (i 1).val := by
  unfold DotDims.rhsIdx
  rw [dif_neg (show ¬(1 : Fin S512x1024.rank) ∈ dot_S1000x512_S512x1024_S1000x1024_1_0_0_1_n_n.rhsBatch by decide), dif_pos (show (1 : Fin S512x1024.rank) ∈ dot_S1000x512_S512x1024_S1000x1024_1_0_0_1_n_n.rhsNonContracting by decide)]
  rfl

/-- One block of 1000 rows against a 512 × 1024 weight matrix, accumulated onto zero: entry (p, q) is the sum over
    the 512 shared coordinates of the products. -/
theorem hidden_matmul_apply (l : FVec Ideal S1000x512 .f32) (r : FVec Ideal S512x1024 .f32) (p : Fin 1000) (q : Fin 1024) :
    matmul dot_S1000x512_S512x1024_S1000x1024_1_0_0_1_n_n (some .fp32) l r (constant (F := Ideal) S1000x1024 .f32 0x00000000#32) (ix2 p q)
      = ∑ k : Fin 512, l (ix2 p k) * r (ix2 k q) := by
  simp only [matmul]
  rw [Ideal.matmul_constant_zero_apply, ← Equiv.sum_comp (contrEquiv1 dot_S1000x512_S512x1024_S1000x1024_1_0_0_1_n_n 512 rfl rfl).symm]
  refine Finset.sum_congr rfl fun k _ => ?_
  have hk := contrEquiv1_symm_val dot_S1000x512_S512x1024_S1000x1024_1_0_0_1_n_n 512 rfl rfl k
  have el : dot_S1000x512_S512x1024_S1000x1024_1_0_0_1_n_n.lhsIdx (ix2 p q) ((contrEquiv1 dot_S1000x512_S512x1024_S1000x1024_1_0_0_1_n_n 512 rfl rfl).symm k) = ix2 p k := funext fun a => Fin.ext (by
    match a with
    | ⟨0, _⟩ => exact hidden_lhs_0 _ _
    | ⟨1, _⟩ => exact (hidden_lhs_1 _ _).trans hk)
  have er : dot_S1000x512_S512x1024_S1000x1024_1_0_0_1_n_n.rhsIdx (ix2 p q) ((contrEquiv1 dot_S1000x512_S512x1024_S1000x1024_1_0_0_1_n_n 512 rfl rfl).symm k) = ix2 k q := funext fun a => Fin.ext (by
    match a with
    | ⟨0, _⟩ => exact (hidden_rhs_0 _ _).trans hk
    | ⟨1, _⟩ => exact hidden_rhs_1 _ _)
  rw [el, er]

/-! ## The first layer's block at an entry -/

/-- What one grid point computes from its five blocks — 1000 rows of own features `x0` and of neighbour means `x1`,
    the two weight matrices `x2`, `x3` and the bias row `x4` — read at row `p`, column `q`: the two contractions
    over the 512 input features added, plus the bias entry of the column, then the positive part. -/
theorem hidden_block_apply (x0 x1 : Vec Ideal S1000x512 .f32) (x2 x3 : Vec Ideal S512x1024 .f32) (x4 : Vec Ideal S1x1024 .f32)
    (p : Fin 1000) (q : Fin 1024) :
    k0_pay1 (F := Ideal) x0 x2 x1 x3 x4 (ix2 p q)
      = max (((∑ k : Fin 512, x0 (ix2 p k) * x2 (ix2 k q)) + ∑ k : Fin 512, x1 (ix2 p k) * x3 (ix2 k q)) + x4 (ix2 0 q)) 0 := by
  unfold k0_pay1
  simp only [shapeCast_self]
  refine congrArg₂ max (congrArg₂ (· + ·) (congrArg₂ (· + ·) (hidden_matmul_apply x0 x2 p q) (hidden_matmul_apply x1 x3 p q))
    (broadcastTo_1b_ab_apply x4 broadcasts_S1x1024_S1000x1024 p q)) Ideal.ofBits_zero_f32

/-- A grid point's block is the matching rows of the whole-array function: when block row `p` of the own features
    and of the neighbour means is row `r` of their arrays, and the weight and bias blocks are the whole arrays, entry
    (p, q) of the block is entry (r, q) of `hidden`. -/
theorem hidden_point (x0 x1 : Vec Ideal S1000x512 .f32) (x2 x3 : Vec Ideal S512x1024 .f32) (x4 : Vec Ideal S1x1024 .f32)
    (d n : Cert.Sage.Mat 20000 512) (ws wn : Cert.Sage.Mat 512 1024) (b : Cert.Sage.Mat 1 1024)
    (r : Fin 20000) (p : Fin 1000) (q : Fin 1024)
    (h0 : ∀ k : Fin 512, x0 (ix2 p k) = d (ix2 r k)) (h1 : ∀ k : Fin 512, x1 (ix2 p k) = n (ix2 r k))
    (h2 : ∀ k : Fin 512, x2 (ix2 k q) = ws (ix2 k q)) (h3 : ∀ k : Fin 512, x3 (ix2 k q) = wn (ix2 k q))
    (h4 : x4 (ix2 0 q) = b (ix2 0 q)) :
    k0_pay1 (F := Ideal) x0 x2 x1 x3 x4 (ix2 p q) = Cert.Sage.hidden d n ws wn b (ix2 r q) := by
  rw [hidden_block_apply, Cert.Sage.hidden_apply]
  simp only [h0, h1, h2, h3, h4]

/-! ## From the blocks to the array -/

/-- The body reads and writes each of its blocks whole, from offset (0, 0). -/
theorem hidden_zero_offsets : (![0, 0] : Fin 2 → Nat) = fun _ => 0 := funext fun a => by fin_cases a <;> rfl

/-- The index maps over the 20 grid points: point `t` takes block row `t` of the own features, of the neighbour
    means and of the output, and the one block of each weight matrix and of the bias row. -/
theorem hidden_block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

variable (V : (c : Dev nD) → (b : Ref sig .tc) → Buf (Elt Ideal) ((c : Thread nD τ).loc b))

/-- WHAT POINT `t` WRITES BACK is block `t` of `hidden` of the arrays as the region finds them: an element of a
    block sits in its array at block index × block size + its coordinate inside the block, so block row `p` of the
    row-blocked arrays is row `1000·t + p`, and the whole-array blocks are read where they stand. -/
theorem hidden_flushed (c : Dev nD) (t : Fin cfg0.N) :
    (dat0 (F := Ideal) V c).flushed 5 t = ((cfg0.win 5).blk t).view.read (Elt Ideal)
      (Cert.Sage.hidden (V c main_v19) (V c main_v18) (V c main_arg1) (V c main_arg2) (V c main_v20)) := by
  show (cfg0.win 5).cut (grid0.coords t) ((dat0 V c).after 5 t) = _
  rw [after0_5]
  unfold out0_5
  rw [View.canon_unit_zero hidden_zero_offsets]
  simp only [View.ld_unit_zero (S := S1000x512) hidden_zero_offsets, View.ld_unit_zero (S := S512x1024) hidden_zero_offsets,
    View.ld_unit_zero (S := S1x1024) hidden_zero_offsets]
  obtain ⟨a00, a01, a10, a11, a20, a21, a30, a31, a40, a41, a50, a51, ht⟩ := hidden_block_of_point t
  funext j
  obtain ⟨p, q, rfl⟩ : ∃ (p : Fin 1000) (q : Fin 1024), j = ix2 p q := ⟨j 0, j 1, eq_ix2 j⟩
  show k0_pay1 (F := Ideal) (iblk0 V c 0 t) (iblk0 V c 2 t) (iblk0 V c 1 t) (iblk0 V c 3 t) (iblk0 V c 4 t) (ix2 p q)
    = Cert.Sage.hidden (V c main_v19) (V c main_v18) (V c main_arg1) (V c main_arg2) (V c main_v20) (((cfg0.win 5).blk t).view.emb (ix2 p q))
  have hr : 1000 * t.val + p.val < 20000 := by omega
  have er : ((cfg0.win 5).blk t).view.emb (ix2 p q) = (ix2 (⟨1000 * t.val + p.val, hr⟩ : Fin 20000) q : S20000x1024.Idx) := by
    funext a; apply Fin.ext
    match a with
    | ⟨0, _⟩ => show win0_5.index t (0 : Fin 2) * 1000 + 1 * p.val = 1000 * t.val + p.val; omega
    | ⟨1, _⟩ => show win0_5.index t (1 : Fin 2) * 1024 + 1 * q.val = q.val; omega
  rw [er]
  refine hidden_point (iblk0 V c 0 t) (iblk0 V c 1 t) (iblk0 V c 2 t) (iblk0 V c 3 t) (iblk0 V c 4 t)
    (V c main_v19) (V c main_v18) (V c main_arg1) (V c main_arg2) (V c main_v20) ⟨1000 * t.val + p.val, hr⟩ p q ?_ ?_ ?_ ?_ ?_
  · intro k
    show V c main_v19 (((cfg0.win 0).blk t).view.emb (ix2 p k)) = V c main_v19 (ix2 (⟨1000 * t.val + p.val, hr⟩ : Fin 20000) k)
    refine congrArg (V c main_v19) (funext fun a => Fin.ext ?_)
    match a with
    | ⟨0, _⟩ => show win0_0.index t (0 : Fin 2) * 1000 + 1 * p.val = 1000 * t.val + p.val; omega
    | ⟨1, _⟩ => show win0_0.index t (1 : Fin 2) * 512 + 1 * k.val = k.val; omega
  · intro k
    show V c main_v18 (((cfg0.win 1).blk t).view.emb (ix2 p k)) = V c main_v18 (ix2 (⟨1000 * t.val + p.val, hr⟩ : Fin 20000) k)
    refine congrArg (V c main_v18) (funext fun a => Fin.ext ?_)
    match a with
    | ⟨0, _⟩ => show win0_1.index t (0 : Fin 2) * 1000 + 1 * p.val = 1000 * t.val + p.val; omega
    | ⟨1, _⟩ => show win0_1.index t (1 : Fin 2) * 512 + 1 * k.val = k.val; omega
  · intro k
    show V c main_arg1 (((cfg0.win 2).blk t).view.emb (ix2 k q)) = V c main_arg1 (ix2 k q)
    refine congrArg (V c main_arg1) (funext fun a => Fin.ext ?_)
    match a with
    | ⟨0, _⟩ => show win0_2.index t (0 : Fin 2) * 512 + 1 * k.val = k.val; omega
    | ⟨1, _⟩ => show win0_2.index t (1 : Fin 2) * 1024 + 1 * q.val = q.val; omega
  · intro k
    show V c main_arg2 (((cfg0.win 3).blk t).view.emb (ix2 k q)) = V c main_arg2 (ix2 k q)
    refine congrArg (V c main_arg2) (funext fun a => Fin.ext ?_)
    match a with
    | ⟨0, _⟩ => show win0_3.index t (0 : Fin 2) * 512 + 1 * k.val = k.val; omega
    | ⟨1, _⟩ => show win0_3.index t (1 : Fin 2) * 1024 + 1 * q.val = q.val; omega
  · show V c main_v20 (((cfg0.win 4).blk t).view.emb (ix2 0 q)) = V c main_v20 (ix2 0 q)
    refine congrArg (V c main_v20) (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 1024 + 1 * q.val = q.val; omega

/-- An index of the output array is in point `t`'s block iff each coordinate is in the block's range on its axis. -/
theorem mem_hidden_block (t : Fin cfg0.N) (i : S20000x1024.Idx) :
    i ∈ ((cfg0.win 5).blk t).view.set ↔ ∀ a : Fin 2, win0_5.index t a * S1000x1024.size a ≤ (i a).val ∧ (i a).val < win0_5.index t a * S1000x1024.size a + S1000x1024.size a := by
  show i ∈ ((View.whole main_v21).slice (win0_5.rect t)).set ↔ _
  rw [View.set_slice_whole, Rect.mem_set_unit]
  exact Iff.rfl

/-- THE FIRST LAYER'S ARRAY when the region is left: the twenty blocks of 1000 rows tile the 20000 rows (row `r` is
    in the block of point `r / 1000`), and each block is the matching rows of `hidden` of the five arrays the region
    found on entry. -/
theorem hidden_array (c : Dev nD) :
    (dat0 (F := Ideal) V c).arrAt 5 cfg0.N
      = Cert.Sage.hidden (V c main_v19) (V c main_v18) (V c main_arg1) (V c main_arg2) (V c main_v20) :=
  (dat0 (F := Ideal) V c).arrAt_eq_of_cover 5
    (Cert.Sage.hidden (V c main_v19) (V c main_v18) (V c main_arg1) (V c main_arg2) (V c main_v20))
    (fun t _ => hidden_flushed V c t) (fun i => by
      have hi0 : (i 0).val < 20000 := (i 0).isLt
      have hi1 : (i 1).val < 1024 := (i 1).isLt
      obtain ⟨t, hv⟩ : ∃ t : Fin cfg0.N, t.val = (i 0).val / 1000 :=
        ⟨⟨(i 0).val / 1000, by show (i 0).val / 1000 < grid0.N; rw [N_0]; omega⟩, rfl⟩
      obtain ⟨a00, a01, a10, a11, a20, a21, a30, a31, a40, a41, a50, a51, ht⟩ := hidden_block_of_point t
      refine ⟨t, flush0_5 t, ?_⟩
      rw [mem_hidden_block]
      intro a
      match a with
      | ⟨0, _⟩ => show win0_5.index t (0 : Fin 2) * 1000 ≤ (i 0).val ∧ (i 0).val < win0_5.index t (0 : Fin 2) * 1000 + 1000; omega
      | ⟨1, _⟩ => show win0_5.index t (1 : Fin 2) * 1024 ≤ (i 1).val ∧ (i 1).val < win0_5.index t (1 : Fin 2) * 1024 + 1024; omega)

end Cert.KernelIdeal.RegionValue

end
-- ==== Proof.KernelHost.lean ====
/-
  What the kernel program's buffers hold where its host stretches hand over to its three pipelined regions.

  The program alternates stretches of host operations with regions. A stretch computes each of its results as a pure
  function of earlier buffers; a region replaces its output array by what its write-backs leave and keeps every other
  buffer. Read from the launch memory forward this gives every region's inputs as closed terms:

  * the hidden layer's region is entered with the first 20000 rows of the node features, the neighbour mean of the
    gathered feature rows (a gather along the wrapped source indices, an accumulating scatter into zeros along the
    destination indices, divided by the in-degree count clamped below by one), the two first-layer weight matrices
    and the bias as a one-row matrix;
  * the projection's region is entered with the hidden layer's output array and the second layer's neighbour weights;
  * the final region is entered with the first 5000 hidden rows padded with 120 zero rows, the neighbour mean of the
    gathered PROJECTED rows padded the same way, the second layer's own weights and its bias as a one-row matrix;
  * the program's result is the first 5000 rows of the final region's output array.

  Each region's output array is left as the region's proof data names it; the regions' own values are stated elsewhere.
-/
import proofs.«181733_j75350906241117_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-! ## The first layer's aggregation as one term -/

/-- The 160000 source indices read with wrap-around — a negative word has the axis length `n` added — and laid out
    as a column of start indices. -/
def wrapIndex160000 (n : BitVec 32) (idx : (⟨S160000, .i32⟩ : BufTy).Contents (Elt Ideal)) : (⟨S160000x1, .i32⟩ : BufTy).Contents (Elt Ideal) :=
  broadcastInDim S160000x1 ![0] bcast_S160000_S160000x1_0
    (select (cmpi .slt idx (broadcastInDim S160000 ![] bcast_S_S160000 (constantI S_ 32 0#32)))
      (addi idx (broadcastInDim S160000 ![] bcast_S_S160000 (constantI S_ 32 n))) idx)

/-- The first layer's neighbour mean on the 20000 destination nodes: the rows of `x` gathered along the wrapped
    source indices are summed into zeros at their destination rows, and each row is divided by the number of edges
    that arrive at it, taken as at least one. -/
def neighbourMean1 (x : (⟨S100000x512, .f32⟩ : BufTy).Contents (Elt Ideal)) (src dst : (⟨S160000, .i32⟩ : BufTy).Contents (Elt Ideal)) :
    (⟨S20000x512, .f32⟩ : BufTy).Contents (Elt Ideal) :=
  Host.divf (F := Ideal)
    (Host.scatterAdd (F := Ideal) scatter_S20000x512_S160000x1_S160000x512_1_0_0_1
      (broadcastInDim S20000x512 ![] bcast_S_S20000x512 (constant (F := Ideal) S_ .f32 0x00000000#32))
      (broadcastInDim S160000x1 ![0] bcast_S160000_S160000x1_0 dst)
      (Host.gather gather_S100000x512_S160000x1_S160000x512_1_0_n_n_0_1_1512 x (wrapIndex160000 100000#32 src)))
    (broadcastInDim S20000x512 ![0, 1] bcast_S20000x1_S20000x512_0_1
      (broadcastInDim S20000x1 ![0] bcast_S20000_S20000x1_0
        (maximumf
          (Host.scatterAdd (F := Ideal) scatter_S20000_S160000x1_S160000_n_0_0_1
            (broadcastInDim S20000 ![] bcast_S_S20000 (constant (F := Ideal) S_ .f32 0x00000000#32))
            (broadcastInDim S160000x1 ![0] bcast_S160000_S160000x1_0 dst)
            (broadcastInDim S160000 ![] bcast_S_S160000 (constant (F := Ideal) S_ .f32 0x3F800000#32)))
          (broadcastInDim S20000 ![] bcast_S_S20000 (constant (F := Ideal) S_ .f32 0x3F800000#32)))))

/-! ## The second layer's inputs as terms of the two earlier regions' arrays -/

/-- The 40000 second-layer source indices read with wrap-around (a negative word has `n` added), as a column of
    start indices. -/
def wrapIndex40000 (n : BitVec 32) (idx : (⟨S40000, .i32⟩ : BufTy).Contents (Elt Ideal)) : (⟨S40000x1, .i32⟩ : BufTy).Contents (Elt Ideal) :=
  broadcastInDim S40000x1 ![0] bcast_S40000_S40000x1_0
    (select (cmpi .slt idx (broadcastInDim S40000 ![] bcast_S_S40000 (constantI S_ 32 0#32)))
      (addi idx (broadcastInDim S40000 ![] bcast_S_S40000 (constantI S_ 32 n))) idx)

/-- The second layer's own rows: the first 5000 rows of the hidden features `h`, followed by 120 rows of zeros. -/
def ownHidden2 (h : (⟨S20000x1024, .f32⟩ : BufTy).Contents (Elt Ideal)) : (⟨S5120x1024, .f32⟩ : BufTy).Contents (Elt Ideal) :=
  pad S5120x1024 ![0, 0] ![120, 0] ![0, 0]
    (extractStridedSlice S5000x1024 ![0, 0] h slices_S20000x1024_S5000x1024_0_0)
    (sitofp (F := Ideal) .f32 (constantI S_ 32 0#32)) pads_S5000x1024_S5120x1024_01200_000 h_S_

/-- The second layer's neighbour part, from the PROJECTED rows `p`: the rows gathered along the wrapped source
    indices are summed into zeros at their destination rows among the 5000 output nodes, each row is divided by its
    in-degree count taken as at least one, and 120 rows of zeros follow. -/
def neighbourMean2 (p : (⟨S20000x256, .f32⟩ : BufTy).Contents (Elt Ideal)) (src dst : (⟨S40000, .i32⟩ : BufTy).Contents (Elt Ideal)) :
    (⟨S5120x256, .f32⟩ : BufTy).Contents (Elt Ideal) :=
  pad S5120x256 ![0, 0] ![120, 0] ![0, 0]
    (Host.divf (F := Ideal)
      (Host.scatterAdd (F := Ideal) scatter_S5000x256_S40000x1_S40000x256_1_0_0_1
        (broadcastInDim S5000x256 ![] bcast_S_S5000x256 (constant (F := Ideal) S_ .f32 0x00000000#32))
        (broadcastInDim S40000x1 ![0] bcast_S40000_S40000x1_0 dst)
        (Host.gather gather_S20000x256_S40000x1_S40000x256_1_0_n_n_0_1_1256 p (wrapIndex40000 20000#32 src)))
      (broadcastInDim S5000x256 ![0, 1] bcast_S5000x1_S5000x256_0_1
        (broadcastInDim S5000x1 ![0] bcast_S5000_S5000x1_0
          (maximumf
            (Host.scatterAdd (F := Ideal) scatter_S5000_S40000x1_S40000_n_0_0_1
              (broadcastInDim S5000 ![] bcast_S_S5000 (constant (F := Ideal) S_ .f32 0x00000000#32))
              (broadcastInDim S40000x1 ![0] bcast_S40000_S40000x1_0 dst)
              (broadcastInDim S40000 ![] bcast_S_S40000 (constant (F := Ideal) S_ .f32 0x3F800000#32)))
            (broadcastInDim S5000 ![] bcast_S_S5000 (constant (F := Ideal) S_ .f32 0x3F800000#32))))))
    (sitofp (F := Ideal) .f32 (constantI S_ 32 0#32)) pads_S5000x256_S5120x256_01200_000 h_S_

variable (m : (ℓ : Loc nD τ sig) → Buf (Elt Ideal) ℓ) (ρ : Dev nD → PrngReg)

/-! ## The hidden layer's region is entered with … -/

/-- … the destination nodes' own features: the first 20000 rows of the feature matrix; -/
theorem entry0_own (c : Dev nD) :
    (W1 m ρ c (Proc.devRef .tc main_v19) : S20000x512.Idx → EReal)
      = extractStridedSlice S20000x512 ![0, 0] (m ((c : Thread nD τ).loc main_arg0)) slices_S100000x512_S20000x512_0_0 := by
  show StableHlo.after hostOps0 (W0 m ρ c) (Proc.devRef .tc main_v19) = _
  after_results

/-- … their neighbour means; -/
theorem entry0_mean (c : Dev nD) :
    (W1 m ρ c (Proc.devRef .tc main_v18) : S20000x512.Idx → EReal)
      = neighbourMean1 (m ((c : Thread nD τ).loc main_arg0)) (m ((c : Thread nD τ).loc main_arg7)) (m ((c : Thread nD τ).loc main_arg8)) := by
  show StableHlo.after hostOps0 (W0 m ρ c) (Proc.devRef .tc main_v18) = _
  after_results_simp
  rfl

/-- … the bias vector as a one-row matrix; -/
theorem entry0_bias (c : Dev nD) :
    (W1 m ρ c (Proc.devRef .tc main_v20) : S1x1024.Idx → EReal)
      = shapeCast S1x1024 (m ((c : Thread nD τ).loc main_arg3)) shapeCasts_S1024_S1x1024 := by
  show StableHlo.after hostOps0 (W0 m ρ c) (Proc.devRef .tc main_v20) = _
  after_results
  rfl

/-- … and the two first-layer weight matrices as launched. -/
theorem entry0_w_self (c : Dev nD) :
    W1 m ρ c (Proc.devRef .tc main_arg1) = m ((c : Thread nD τ).loc main_arg1) := by
  show StableHlo.after hostOps0 (W0 m ρ c) (Proc.devRef .tc main_arg1) = _
  after_results

theorem entry0_w_neigh (c : Dev nD) :
    W1 m ρ c (Proc.devRef .tc main_arg2) = m ((c : Thread nD τ).loc main_arg2) := by
  show StableHlo.after hostOps0 (W0 m ρ c) (Proc.devRef .tc main_arg2) = _
  after_results

/-! ## The projection's region is entered with … -/

/-- … the array the hidden layer's region leaves; -/
theorem entry1_hidden (c : Dev nD) :
    W2 m ρ c (Proc.devRef .tc main_v21) = (dat0 (F := Ideal) (V1 m ρ) c).arrAt 5 cfg0.N :=
  W2_arr m ρ c 5

/-- … and the second layer's neighbour weights as launched. -/
theorem entry1_weights (c : Dev nD) :
    W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-! ## The final region is entered with … -/

/-- The projection's region only reads the hidden features: it leaves that array as it found it. -/
theorem hidden_kept (c : Dev nD) :
    W3 m ρ c (Proc.devRef .tc main_v21) = (dat0 (F := Ideal) (V1 m ρ) c).arrAt 5 cfg0.N :=
  (W3_arr m ρ c 0).trans ((((dat1 (F := Ideal) (V2 m ρ) c).arrAt_in 0 rfl _).trans (A_eq1 (V2 m ρ) c 0)).trans (W2_arr m ρ c 5))

/-- An index array of the second layer is as launched when the first host stretch after the projection starts. -/
theorem src2_kept (c : Dev nD) : W3 m ρ c (Proc.devRef .tc main_arg9) = m ((c : Thread nD τ).loc main_arg9) := by
  refine (W3_of_ne m ρ c main_arg9 (by decide)).trans ((W2_of_ne m ρ c main_arg9 (by decide)).trans ?_)
  show StableHlo.after hostOps0 (W0 m ρ c) (Proc.devRef .tc main_arg9) = _
  after_results
theorem dst2_kept (c : Dev nD) : W3 m ρ c (Proc.devRef .tc main_arg10) = m ((c : Thread nD τ).loc main_arg10) := by
  refine (W3_of_ne m ρ c main_arg10 (by decide)).trans ((W2_of_ne m ρ c main_arg10 (by decide)).trans ?_)
  show StableHlo.after hostOps0 (W0 m ρ c) (Proc.devRef .tc main_arg10) = _
  after_results

/-- … the output nodes' own hidden rows, padded; -/
theorem entry2_own (c : Dev nD) :
    (W8 m ρ c (Proc.devRef .tc main_v43) : S5120x1024.Idx → EReal)
      = ownHidden2 ((dat0 (F := Ideal) (V1 m ρ) c).arrAt 5 cfg0.N) := by
  show StableHlo.after hostOps2_4 (StableHlo.after hostOps2_3 (StableHlo.after hostOps2_2 (StableHlo.after hostOps2_1
    (StableHlo.after hostOps2 (W3 m ρ c))))) (Proc.devRef .tc main_v43) = _
  after_results_simp
  rw [hidden_kept]
  rfl

/-- … and their neighbour part: the mean of the gathered projected rows, padded. -/
theorem entry2_mean (c : Dev nD) :
    (W8 m ρ c (Proc.devRef .tc main_v44) : S5120x256.Idx → EReal)
      = neighbourMean2 ((dat1 (F := Ideal) (V2 m ρ) c).arrAt 2 cfg1.N)
          (m ((c : Thread nD τ).loc main_arg9)) (m ((c : Thread nD τ).loc main_arg10)) := by
  show StableHlo.after hostOps2_4 (StableHlo.after hostOps2_3 (StableHlo.after hostOps2_2 (StableHlo.after hostOps2_1
    (StableHlo.after hostOps2 (W3 m ρ c))))) (Proc.devRef .tc main_v44) = _
  after_results_simp
  rw [W3_arr m ρ c 2, src2_kept, dst2_kept]
  rfl

end Cert.KernelIdeal.HostValue
end
-- ==== Proof.LibGnnLaws.lean ====
import Idealize.ShloMosaic.PureOps.Ideal
import Idealize.ShloMosaic.PureOps.Ideal.Laws

/-!
# Laws of a message-passing layer over the extended reals

A graph network's layer can be arranged in two ways. One arrangement computes, per EDGE, the affine image of the
edge's hidden message and then sums the images at the edge's destination node. The other sums the hidden messages
at the node first and applies the affine map once, the bias weighted by the node's in-degree. Over the reals the
two agree by linearity; over the extended reals (where a float is a real number or an infinity, and
distributivity fails at the infinities) they agree when the entries are real numbers. This module states that law
and the smaller ones around it, over abstract finite index types:

* `IsReal` — "is the coercion of a real number" — and its closure under sums, products, `relu`, finite sums;
* `coe_sum` — the coercion of a finite sum of reals is the sum of the coercions;
* `sum_edges_affine` — the aggregation law above, for any finite set of edges (and for the set of edges into a
  node, with the in-degree as a sum of indicator values);
* `sum_fin_add_split` — a contraction over `m + n` indices is the contraction over the first `m` plus the one
  over the last `n` (no finiteness: associativity and commutativity only);
* `onehot_select` — a one-hot row times a table column selects the table's entry (no finiteness either: zero
  times anything is zero in Mathlib's extended reals);
* `mul_inv_eq_div` — multiplying by the reciprocal of a nonzero real is the ideal division by it, at the
  infinities too;
* the extended reals the float words `0.0`, `1.0` and `50000.0` denote.
-/

noncomputable section

open scoped BigOperators

namespace Cert.Lib.GnnLaws

open Idealize.ShloMosaic

/-! ## Real entries -/

/-- An extended real that is (the coercion of) a real number. -/
def IsReal (x : EReal) : Prop := ∃ r : ℝ, x = (r : EReal)

/-- A coerced real is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real entry is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two real entries is real. -/
theorem isReal_max {x y : EReal} (hx : IsReal x) (hy : IsReal y) : IsReal (max x y) := by
  rcases max_choice x y with h | h <;> rw [h] <;> assumption

/-- `relu` of a real entry is real. -/
theorem IsReal.relu {x : EReal} (hx : IsReal x) : IsReal (max x 0) := isReal_max hx IsReal.zero

/-- `relu` of a coerced real is the coerced `relu`. -/
theorem relu_coe (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real entries is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A contraction of real entries is real. -/
theorem IsReal.dot {κ : Type*} [Fintype κ] (x w : κ → EReal) (hx : ∀ k, IsReal (x k)) (hw : ∀ k, IsReal (w k)) :
    IsReal (∑ k, x k * w k) :=
  IsReal.sum _ _ fun k _ => (hx k).mul (hw k)

/-- The ideal division of a real entry by a nonzero real is real. -/
theorem IsReal.div_coe {s : EReal} (hs : IsReal s) {y : ℝ} (hy : y ≠ 0) : IsReal (Ideal.div s (y : EReal)) := by
  rw [Ideal.div_coe hy]; exact hs.mul (IsReal.coe _)

/-- A family of real entries is the coercion of a family of reals. -/
theorem exists_real_fun {ι : Type*} (f : ι → EReal) (h : ∀ i, IsReal (f i)) : ∃ g : ι → ℝ, ∀ i, f i = (g i : EReal) :=
  ⟨fun i => (h i).choose, fun i => (h i).choose_spec⟩

/-- The same for a family over two indices. -/
theorem exists_real_fun₂ {ι κ : Type*} (f : ι → κ → EReal) (h : ∀ i k, IsReal (f i k)) :
    ∃ g : ι → κ → ℝ, ∀ i k, f i k = (g i k : EReal) :=
  ⟨fun i k => (h i k).choose, fun i k => (h i k).choose_spec⟩

/-! ## The aggregation law -/

section Aggregation

variable {E K : Type*} [Fintype K]

/-- THE AGGREGATION LAW, over reals: summing over a finite set of edges the affine image `r e · w + b` of each
    edge's hidden message is the affine image of the summed messages, the bias weighted by the number of edges. -/
theorem sum_edges_affine (S : Finset E) (r : E → K → ℝ) (w : K → ℝ) (b : ℝ) :
    ∑ e ∈ S, ((∑ k, (r e k : EReal) * (w k : EReal)) + (b : EReal))
      = (∑ k, (∑ e ∈ S, (r e k : EReal)) * (w k : EReal)) + ((S.card : ℝ) : EReal) * (b : EReal) := by
  have hreal : ∑ e ∈ S, ((∑ k, r e k * w k) + b) = (∑ k, (∑ e ∈ S, r e k) * w k) + (S.card : ℝ) * b := by
    rw [Finset.sum_add_distrib, Finset.sum_comm, Finset.sum_const, nsmul_eq_mul]
    congr 1
    exact Finset.sum_congr rfl fun k _ => (Finset.sum_mul S (fun e => r e k) (w k)).symm
  simp only [← EReal.coe_mul, ← coe_sum, ← EReal.coe_add]
  exact congrArg _ hreal

/-- The aggregation law for extended reals with real entries. -/
theorem sum_edges_affine_of_isReal (S : Finset E) (r : E → K → EReal) (w : K → EReal) (b : EReal)
    (hr : ∀ e k, IsReal (r e k)) (hw : ∀ k, IsReal (w k)) (hb : IsReal b) :
    ∑ e ∈ S, ((∑ k, r e k * w k) + b) = (∑ k, (∑ e ∈ S, r e k) * w k) + ((S.card : ℝ) : EReal) * b := by
  obtain ⟨r', hr'⟩ := exists_real_fun₂ r hr
  obtain ⟨w', hw'⟩ := exists_real_fun w hw
  obtain ⟨b', rfl⟩ := hb
  simp only [hr', hw']
  exact sum_edges_affine S r' w' b'

/-- The number of members of a filtered finite set, as the extended-real sum of the indicator values: a node's
    in-degree as a scatter-add of ones computes it. -/
theorem card_filter_eq_sum_ite {E : Type*} (S : Finset E) (p : E → Prop) [DecidablePred p] :
    (((S.filter p).card : ℝ) : EReal) = ∑ e ∈ S, (if p e then (1 : EReal) else 0) := by
  have h : (((S.filter p).card : ℝ)) = ∑ e ∈ S, (if p e then (1 : ℝ) else 0) := by
    rw [Finset.card_filter]; push_cast; rfl
  rw [h, coe_sum]
  exact Finset.sum_congr rfl fun e _ => by split <;> rfl

/-- The aggregation law at a node: over the edges whose destination is the node, the bias weighted by the in-degree
    written as the sum of indicator values over all edges. -/
theorem sum_into_node_affine {E N : Type*} [Fintype E] [DecidableEq N] (dst : E → N) (n : N)
    (r : E → K → EReal) (w : K → EReal) (b : EReal)
    (hr : ∀ e k, IsReal (r e k)) (hw : ∀ k, IsReal (w k)) (hb : IsReal b) :
    ∑ e ∈ Finset.univ.filter (fun e => dst e = n), ((∑ k, r e k * w k) + b)
      = (∑ k, (∑ e ∈ Finset.univ.filter (fun e => dst e = n), r e k) * w k)
        + (∑ e, (if dst e = n then (1 : EReal) else 0)) * b := by
  rw [sum_edges_affine_of_isReal _ r w b hr hw hb, card_filter_eq_sum_ite]

end Aggregation

/-! ## A contraction split in two -/

/-- A sum over `m + n` indices is the sum over the first `m` plus the sum over the last `n`. -/
theorem sum_fin_add_split {m n : Nat} (f : Fin (m + n) → EReal) :
    ∑ k, f k = (∑ k : Fin m, f (Fin.castAdd n k)) + ∑ k : Fin n, f (Fin.natAdd m k) :=
  Fin.sum_univ_add f

/-- A contraction over 128 indices is the contraction over the first 64 plus the one over the last 64: a
    concatenated pair of 64-wide rows against a 128-row matrix is the first row against the top half plus the
    second row against the bottom half. -/
theorem sum_fin128_split (x w : Fin 128 → EReal) :
    ∑ k, x k * w k
      = (∑ k : Fin 64, x (Fin.castAdd 64 k) * w (Fin.castAdd 64 k))
        + ∑ k : Fin 64, x (Fin.natAdd 64 k) * w (Fin.natAdd 64 k) :=
  sum_fin_add_split (m := 64) (n := 64) fun k => x k * w k

/-- Regrouping a bias: `A + (B + c) = (A + B) + c`. -/
theorem add_regroup (A B c : EReal) : A + (B + c) = (A + B) + c := (add_assoc A B c).symm

/-! ## One-hot selection -/

/-- A one-hot row times a column selects the column's entry at the hot index. -/
theorem onehot_select {V : Type*} [Fintype V] [DecidableEq V] (emb : V → EReal) (x : V) :
    ∑ v, (if x = v then (1 : EReal) else 0) * emb v = emb x := by
  rw [Finset.sum_eq_single x]
  · rw [if_pos rfl, one_mul]
  · intro v _ hv
    rw [if_neg (fun h => hv h.symm), zero_mul]
  · intro h; exact absurd (Finset.mem_univ x) h

/-- The same with the comparison written the other way round. -/
theorem onehot_select' {V : Type*} [Fintype V] [DecidableEq V] (emb : V → EReal) (x : V) :
    ∑ v, (if v = x then (1 : EReal) else 0) * emb v = emb x := by
  rw [← onehot_select emb x]
  exact Finset.sum_congr rfl fun v _ => by simp only [eq_comm]

/-! ## The mean -/

/-- Multiplying by the reciprocal of a nonzero real is the ideal division by it, at the infinities too. -/
theorem mul_inv_eq_div {y : ℝ} (h : y ≠ 0) (s : EReal) : s * ((1 / y : ℝ) : EReal) = Ideal.div s (y : EReal) :=
  (Ideal.div_coe h s).symm

/-- A sum over 50000 nodes times `1 / 50000` is the sum divided by 50000. -/
theorem mul_inv_50000 (s : EReal) : s * ((1 / 50000 : ℝ) : EReal) = Ideal.div s ((50000 : ℝ) : EReal) :=
  mul_inv_eq_div (by norm_num) s

/-! ## The float words of this network -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

end Cert.Lib.GnnLaws

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.KernelLayout.lean ====
/-
  The kernel program's host operations around its third region, read at an index, and the realness of the
  specification's dense stages.

  Between the regions the program moves whole arrays: it keeps the first 5000 rows of the hidden features and of the
  final 5120-row result, pads the 5000-row operands of the last region with 120 further rows, and reshapes each bias
  vector to a one-row matrix. Read at a row below 5000 (and any column) each of these is the operand's own entry; the
  padding value is never met there. The clamped degree of a destination row — ones added from zero at the rows the
  edges' destination words name, then the maximum with one — is the maximum of the number of edges into the row,
  written as a sum of ones, and one. Last, a stage of the specification whose inputs are real numbers has real entries:
  sums, products and maxima of reals are real.
-/
import proofs.«181733_j75350906241117_2_alg».proof.Proof.Gen.KernelIdeal
import proofs.«181733_j75350906241117_2_alg».proof.Proof.SageSpec
import proofs.«181733_j75350906241117_2_alg».proof.Proof.LibGnnLaws
import proofs.«181733_j75350906241117_2_alg».proof.Proof.LibScatterGather
import Idealize.ShloMosaic.Lib.Pipeline.Value
import Idealize.ShloMosaic.Lib.ValueIdx
import Idealize.ShloMosaic.Lib.KernelVsHost

noncomputable section

open scoped BigOperators

namespace Cert.KernelIdeal.AtIndex

open Cert.KernelIdeal Cert.KernelIdeal.Facts₀ Idealize.ShloMosaic Idealize.ShloMosaic.ValueIdx Cert.Lib.ScatterGather

/-! ## Rows kept, rows added, a vector as one row -/

/-- The hidden features padded to 5120 rows, at a row below 5000: the operand's entry. -/
theorem padded_hidden_apply (X : FVec Ideal S5000x1024 .f32) (v : FVec Ideal S_ .f32) (d : Fin 5000) (k : Fin 1024) :
    pad S5120x1024 ![0, 0] ![120, 0] ![0, 0] X v pads_S5000x1024_S5120x1024_01200_000 h_S_ (ix2 ⟨d.val, by omega⟩ k)
      = X (ix2 d k) :=
  pad_apply_of_inside ![0, 0] ![120, 0] ![0, 0] X v pads_S5000x1024_S5120x1024_01200_000 h_S_ _ (ix2 d k)
    (fun a => match a with
      | ⟨0, _⟩ => by show d.val = 0 + d.val * (0 + 1); omega
      | ⟨1, _⟩ => by show k.val = 0 + k.val * (0 + 1); omega)

/-- The neighbour part padded to 5120 rows, at a row below 5000: the operand's entry. -/
theorem padded_neighbour_apply (X : FVec Ideal S5000x256 .f32) (v : FVec Ideal S_ .f32) (d : Fin 5000) (j : Fin 256) :
    pad S5120x256 ![0, 0] ![120, 0] ![0, 0] X v pads_S5000x256_S5120x256_01200_000 h_S_ (ix2 ⟨d.val, by omega⟩ j)
      = X (ix2 d j) :=
  pad_apply_of_inside ![0, 0] ![120, 0] ![0, 0] X v pads_S5000x256_S5120x256_01200_000 h_S_ _ (ix2 d j)
    (fun a => match a with
      | ⟨0, _⟩ => by show d.val = 0 + d.val * (0 + 1); omega
      | ⟨1, _⟩ => by show j.val = 0 + j.val * (0 + 1); omega)

/-- The first 5000 rows of the hidden features: row `d` is the taller array's row `d`. -/
theorem first_rows_hidden_apply (H : FVec Ideal S20000x1024 .f32) (d : Fin 5000) (k : Fin 1024) :
    extractStridedSlice S5000x1024 ![0, 0] H slices_S20000x1024_S5000x1024_0_0 (ix2 d k) = H (ix2 ⟨d.val, by omega⟩ k) :=
  extractStridedSlice_apply ![0, 0] H slices_S20000x1024_S5000x1024_0_0 (ix2 d k) _
    (fun a => match a with
      | ⟨0, _⟩ => by show d.val = 0 + d.val; omega
      | ⟨1, _⟩ => by show k.val = 0 + k.val; omega)

/-- The first 5000 rows of the last region's result: row `d` is the 5120-row array's row `d`. -/
theorem first_rows_output_apply (O : FVec Ideal S5120x256 .f32) (d : Fin 5000) (j : Fin 256) :
    extractStridedSlice S5000x256 ![0, 0] O slices_S5120x256_S5000x256_0_0 (ix2 d j) = O (ix2 ⟨d.val, by omega⟩ j) :=
  extractStridedSlice_apply ![0, 0] O slices_S5120x256_S5000x256_0_0 (ix2 d j) _
    (fun a => match a with
      | ⟨0, _⟩ => by show d.val = 0 + d.val; omega
      | ⟨1, _⟩ => by show j.val = 0 + j.val; omega)

/-- The second layer's bias as a one-row matrix: column `j` of the row is entry `j` of the vector. -/
theorem bias_row_apply (b : FVec Ideal S256 .f32) (j : Fin 256) :
    shapeCast S1x256 b shapeCasts_S256_S1x256 (ix2 (0 : Fin 1) j) = b (ix1 j) :=
  shapeCast_apply b shapeCasts_S256_S1x256 (ix2 (0 : Fin 1) j) (ix1 j) (by
    rw [Shape.rowMajor_val_one, Shape.rowMajor_val_two]
    show j.val = 0 * 256 + j.val
    omega)

/-- The first layer's bias as a one-row matrix: column `q` of the row is entry `q` of the vector. -/
theorem bias_row1_apply (b : FVec Ideal S1024 .f32) (q : Fin 1024) :
    shapeCast S1x1024 b shapeCasts_S1024_S1x1024 (ix2 (0 : Fin 1) q) = b (ix1 q) :=
  shapeCast_apply b shapeCasts_S1024_S1x1024 (ix2 (0 : Fin 1) q) (ix1 q) (by
    rw [Shape.rowMajor_val_one, Shape.rowMajor_val_two]
    show q.val = 0 * 1024 + q.val
    omega)

/-! ## The clamped degree -/

/-- A constant spread to every index of an array is the constant's value everywhere. -/
theorem splat_apply {s : Shape} (hb : S_.BroadcastsInDim s (![] : Fin 0 → Fin s.rank)) (w : BitVec 32) (i : s.Idx) :
    broadcastInDim s ![] hb (constant (F := Ideal) S_ .f32 w) i = Ideal.ofBits .f32 w :=
  (broadcastInDim_apply _ hb (constant (F := Ideal) S_ .f32 w) i ix0 (fun a => a.elim0)).trans rfl

/-- The clamped degree of destination row `d`: ones added from zero at the rows the destination words name — one
    per edge into `d` —, then the maximum with one. -/
theorem clamped_degree_apply (dcol : IVec S40000x1 32) (d : Fin 5000) :
    maximumf (Host.scatterAdd scatter_S5000_S40000x1_S40000_n_0_0_1
        (broadcastInDim S5000 ![] bcast_S_S5000 (constant (F := Ideal) S_ .f32 0x00000000#32)) dcol
        (broadcastInDim S40000 ![] bcast_S_S40000 (constant (F := Ideal) S_ .f32 0x3F800000#32)))
      (broadcastInDim S5000 ![] bcast_S_S5000 (constant (F := Ideal) S_ .f32 0x3F800000#32)) (ix1 d)
      = max (∑ _e ∈ Finset.univ.filter (fun e : Fin 40000 => (dcol (ix2 e (0 : Fin 1))).toInt = (d.val : Int)), (1 : EReal)) 1 := by
  show max (Host.scatterAdd scatter_S5000_S40000x1_S40000_n_0_0_1 _ dcol _ (ix1 d))
    (broadcastInDim S5000 ![] bcast_S_S5000 (constant (F := Ideal) S_ .f32 0x3F800000#32) (ix1 d)) = _
  rw [splat_apply bcast_S_S5000 0x3F800000#32 (ix1 d), Cert.Lib.GnnLaws.ofBits_one]
  refine congrArg (fun s => max s (1 : EReal)) ?_
  refine (scatterAdd1_apply (N := 5000) (E := 40000) scatter_S5000_S40000x1_S40000_n_0_0_1.wf _ dcol _ d).trans ?_
  rw [splat_apply bcast_S_S5000 0x00000000#32 (ix1 d), Cert.Lib.GnnLaws.ofBits_zero, zero_add]
  exact Finset.sum_congr rfl fun e _ =>
    (splat_apply bcast_S_S40000 0x3F800000#32 (ix1 e)).trans Cert.Lib.GnnLaws.ofBits_one

end Cert.KernelIdeal.AtIndex

/-! ## The specification's stages on real inputs -/

namespace Cert.Sage

open Cert.Lib.GnnLaws

/-- The first layer with its positive part has real entries when the features, the neighbour means, the two weight
    matrices and the bias have: two contractions of reals, a sum, and a maximum with zero. -/
theorem hidden_real (d n : Mat 20000 512) (ws wn : Mat 512 1024) (b : Mat 1 1024)
    (hd : ∀ i, IsReal (d i)) (hn : ∀ i, IsReal (n i)) (hws : ∀ i, IsReal (ws i)) (hwn : ∀ i, IsReal (wn i))
    (hb : ∀ i, IsReal (b i)) : ∀ i, IsReal (hidden d n ws wn b i) := fun i =>
  IsReal.relu (((IsReal.dot _ _ (fun _ => hd _) (fun _ => hws _)).add
    (IsReal.dot _ _ (fun _ => hn _) (fun _ => hwn _))).add (hb _))

/-- The projected hidden features have real entries when the hidden features and the weights have. -/
theorem projected_real (h : Mat 20000 1024) (w : Mat 1024 256) (hh : ∀ i, IsReal (h i)) (hw : ∀ i, IsReal (w i)) :
    ∀ i, IsReal (projected h w i) := fun i =>
  IsReal.dot _ _ (fun _ => hh _) (fun _ => hw _)

end Cert.Sage

end
-- ==== Proof.RefValue.lean ====
/-
  The reference network's result, read at an index in closed form on the extended reals.

  The reference computes, per layer, the mean over a destination node's incoming edges of the gathered source rows
  (a gather of rows, an accumulating scatter into zeros, a degree count by an accumulating scatter of ones, a division
  by the degree clamped below at one), sends the node's own row and that mean through two weight matrices, and adds a
  bias. Three statements:

  * `hidden_ref`: the first layer followed by the positive part is `Cert.Sage.hidden` of the first 20000 rows of
    `x`, the first layer's neighbour means, the two weight matrices and the bias as a one-row matrix;
  * `result_ref`: an entry `(d, j)` of the final result is
    `Σ_k h[d,k]·ws2[k,j] + Σ_k ((0 + Σ_{e ∈ S d} h[row e, k]) / D d)·wn2[k,j] + b2[j]`, where `h` is the hidden array,
    `S d` the edges whose destination word is `d`, `row e` the source word of edge `e` clamped into the rows of `h`,
    and `D d = max (0 + Σ_{e ∈ S d} 1) 1` the clamped degree;
  * `mean1_real`: the first layer's neighbour means are real numbers when every entry of `x` is;
  * `hidden_ref_real`: the hidden array's entries are real numbers when the first layer's float inputs are.
-/
import proofs.«181733_j75350906241117_2_alg».proof.Proof.Gen.ReferenceIdeal.Read
import proofs.«181733_j75350906241117_2_alg».proof.Proof.SageSpec
import proofs.«181733_j75350906241117_2_alg».proof.Proof.LibScatterGather
import proofs.«181733_j75350906241117_2_alg».proof.Proof.LibGnnLaws

noncomputable section

open scoped BigOperators

namespace Cert.ReferenceIdeal.RefValue

open Cert.ReferenceIdeal Cert.ReferenceIdeal.Gen Cert.ReferenceIdeal.Read Idealize.ShloMosaic Idealize.ShloMosaic.ValueIdx

/-- The left factor of a row-by-column contraction read at `(p, q)` and `k` is entry `(p, k)`. -/
theorem lidx20 (p : Fin 20000) (q : Fin 1024) (k : Fin 512) : lidx_main_v20 (ix2 p q) k = ix2 p k :=
  funext fun a => match a with | ⟨0, _⟩ => rfl | ⟨1, _⟩ => rfl
theorem ridx20 (p : Fin 20000) (q : Fin 1024) (k : Fin 512) : ridx_main_v20 (ix2 p q) k = ix2 k q :=
  funext fun a => match a with | ⟨0, _⟩ => rfl | ⟨1, _⟩ => rfl
theorem lidx21 (p : Fin 20000) (q : Fin 1024) (k : Fin 512) : lidx_main_v21 (ix2 p q) k = ix2 p k :=
  funext fun a => match a with | ⟨0, _⟩ => rfl | ⟨1, _⟩ => rfl
theorem ridx21 (p : Fin 20000) (q : Fin 1024) (k : Fin 512) : ridx_main_v21 (ix2 p q) k = ix2 k q :=
  funext fun a => match a with | ⟨0, _⟩ => rfl | ⟨1, _⟩ => rfl
theorem idx24 (p : Fin 20000) (q : Fin 1024) : idx_main_v24 (ix2 p q) = ix2 (0 : Fin 1) q :=
  funext fun a => match a with | ⟨0, _⟩ => rfl | ⟨1, _⟩ => rfl

theorem hidden_ref (x : (⟨S100000x512, .f32⟩ : BufTy).Contents (Elt Ideal))
    (ws1 wn1 : (⟨S512x1024, .f32⟩ : BufTy).Contents (Elt Ideal)) (b1 : (⟨S1024, .f32⟩ : BufTy).Contents (Elt Ideal))
    (e0s e0d : (⟨S160000, .i32⟩ : BufTy).Contents (Elt Ideal)) :
    val_main_v26 (F := Ideal) x ws1 wn1 b1 e0s e0d
      = Cert.Sage.hidden (val_main_v0 (F := Ideal) x) (val_main_v19 (F := Ideal) x e0s e0d) ws1 wn1
          (val_main_v23 (F := Ideal) b1) := by
  funext i
  obtain ⟨p, q, rfl⟩ : ∃ (p : Fin 20000) (q : Fin 1024), i = ix2 p q := ⟨i 0, i 1, eq_ix2 i⟩
  rw [Cert.Sage.hidden_apply, val_main_v26_apply, val_main_v25_apply, val_main_v22_apply, val_main_v20_apply,
    val_main_v21_apply, val_main_v24_apply, val_main_call0_v0_apply, val_main_call0_cst_apply]
  simp only [lidx20, ridx20, lidx21, ridx21, idx24, Ideal.maximumf_def, Ideal.addf_def, Ideal.ofBits_def,
    Ideal.ofBits_zero_f32]

theorem ofBits_one_f32 : Ideal.ofBits .f32 0x3F800000#32 = 1 := by
  simp [Ideal.ofBits, Ideal.ieee]
  first
    | (rw [← EReal.coe_mul]; norm_num)
    | (norm_cast; norm_num)
    | exact_mod_cast (by norm_num : (8388608:ℝ) * ((2:ℝ) ^ 23)⁻¹ = 1)

/-- The edges whose destination word, read signed, is `d`. -/
def S (dst : IVec S40000x1 32) (d : Fin 5000) : Finset (Fin 40000) :=
  Finset.univ.filter (fun e : Fin 40000 => (dst (ix2 e (0 : Fin 1))).toInt = (d.val : Int))

/-- The row of the hidden array edge `e` gathers: its source word read signed and clamped into `[0, 19999]`. -/
def row (src : IVec S40000x1 32) (e : Fin 40000) : Fin 20000 :=
  ⟨min (src (ix2 e (0 : Fin 1))).toInt.toNat 19999, by omega⟩

theorem gather2_apply (X : FVec Ideal S20000x1024 .f32) (I : IVec S40000x1 32) (e : Fin 40000) (k : Fin 1024) :
    Host.gather gather_S20000x1024_S40000x1_S40000x1024_1_0_n_n_0_1_11024 X I (ix2 e k) = X (ix2 (row I e) k) :=
  Cert.Lib.ScatterGather.gather_rows_apply (N := 20000) (C := 1024) (E := 40000) (by omega)
    Facts₀.gather_S20000x1024_S40000x1_S40000x1024_1_0_n_n_0_1_11024_wf X I e k

theorem scatRows2_apply (X : FVec Ideal S5000x1024 .f32) (I : IVec S40000x1 32) (Y : FVec Ideal S40000x1024 .f32)
    (d : Fin 5000) (k : Fin 1024) :
    Host.scatterAdd (F := Ideal) scatter_S5000x1024_S40000x1_S40000x1024_1_0_0_1 X I Y (ix2 d k)
      = X (ix2 d k) + ∑ e ∈ S I d, Y (ix2 e k) :=
  Cert.Lib.ScatterGather.scatterAddRows_apply (N := 5000) (C := 1024) (E := 40000)
    Facts₀.scatter_S5000x1024_S40000x1_S40000x1024_1_0_0_1_wf X I Y d k

theorem scat1_2_apply (X : FVec Ideal S5000 .f32) (I : IVec S40000x1 32) (Y : FVec Ideal S40000 .f32) (d : Fin 5000) :
    Host.scatterAdd (F := Ideal) scatter_S5000_S40000x1_S40000_n_0_0_1 X I Y (ix1 d)
      = X (ix1 d) + ∑ e ∈ S I d, Y (ix1 e) :=
  Cert.Lib.ScatterGather.scatterAdd1_apply (N := 5000) (E := 40000)
    Facts₀.scatter_S5000_S40000x1_S40000_n_0_0_1_wf X I Y d

/-- The clamped degree of destination `d`: the number of its incoming edges, counted from zero on the extended reals,
    and not below one. -/
def D (dst : IVec S40000x1 32) (d : Fin 5000) : EReal := max (0 + ∑ _e ∈ S dst d, (1 : EReal)) 1

/-- The second layer's degree count at `d`. -/
theorem count2 (e1d : (⟨S40000, .i32⟩ : BufTy).Contents (Elt Ideal)) (d : Fin 5000) :
    val_main_v41 (F := Ideal) e1d (ix1 d) = 0 + ∑ _e ∈ S (val_main_v36 (F := Ideal) e1d) d, (1 : EReal) := by
  unfold val_main_v41
  refine (scat1_2_apply _ _ _ d).trans ?_
  rw [val_main_v39_apply, val_main_cst_8_apply]
  simp only [val_main_v38_apply, val_main_cst_7_apply, Ideal.ofBits_def, Ideal.ofBits_zero_f32, ofBits_one_f32]
  rfl

theorem deg2 (e1d : (⟨S40000, .i32⟩ : BufTy).Contents (Elt Ideal)) (d : Fin 5000) (k : Fin 1024) :
    val_main_v45 (F := Ideal) e1d (ix2 d k) = D (val_main_v36 (F := Ideal) e1d) d := by
  have hi : idx_main_v44 (idx_main_v45 (ix2 d k)) = ix1 d := funext fun a => match a with | ⟨0, _⟩ => rfl
  rw [val_main_v45_apply, val_main_v44_apply, val_main_v43_apply, val_main_v42_apply, val_main_cst_9_apply, hi, count2,
    Ideal.maximumf_def, Ideal.ofBits_def, ofBits_one_f32]
  rfl

/-- The second layer's accumulated neighbour rows at `(d, k)`: zero plus column `k` of the hidden rows gathered by the
    edges whose destination word is `d`. -/
theorem sum2 (x : (⟨S100000x512, .f32⟩ : BufTy).Contents (Elt Ideal))
    (ws1 wn1 : (⟨S512x1024, .f32⟩ : BufTy).Contents (Elt Ideal)) (b1 : (⟨S1024, .f32⟩ : BufTy).Contents (Elt Ideal))
    (e0s e0d : (⟨S160000, .i32⟩ : BufTy).Contents (Elt Ideal)) (e1s e1d : (⟨S40000, .i32⟩ : BufTy).Contents (Elt Ideal))
    (d : Fin 5000) (k : Fin 1024) :
    val_main_v37 (F := Ideal) x ws1 wn1 b1 e0s e0d e1s e1d (ix2 d k)
      = 0 + ∑ e ∈ S (val_main_v36 (F := Ideal) e1d) d,
          val_main_v26 (F := Ideal) x ws1 wn1 b1 e0s e0d (ix2 (row (val_main_v33 (F := Ideal) e1s) e) k) := by
  unfold val_main_v37
  refine (scatRows2_apply _ _ _ d k).trans ?_
  rw [val_main_v35_apply, val_main_cst_6_apply, Ideal.ofBits_def, Ideal.ofBits_zero_f32]
  refine congrArg (fun t => (0 : EReal) + t) (Finset.sum_congr rfl fun e _ => ?_)
  unfold val_main_v34
  exact gather2_apply _ _ e k

/-- The second layer's neighbour mean at `(d, k)`. -/
theorem mean2 (x : (⟨S100000x512, .f32⟩ : BufTy).Contents (Elt Ideal))
    (ws1 wn1 : (⟨S512x1024, .f32⟩ : BufTy).Contents (Elt Ideal)) (b1 : (⟨S1024, .f32⟩ : BufTy).Contents (Elt Ideal))
    (e0s e0d : (⟨S160000, .i32⟩ : BufTy).Contents (Elt Ideal)) (e1s e1d : (⟨S40000, .i32⟩ : BufTy).Contents (Elt Ideal))
    (d : Fin 5000) (k : Fin 1024) :
    val_main_v46 (F := Ideal) x ws1 wn1 b1 e0s e0d e1s e1d (ix2 d k)
      = Ideal.div (0 + ∑ e ∈ S (val_main_v36 (F := Ideal) e1d) d,
          val_main_v26 (F := Ideal) x ws1 wn1 b1 e0s e0d (ix2 (row (val_main_v33 (F := Ideal) e1s) e) k))
          (D (val_main_v36 (F := Ideal) e1d) d) := by
  rw [val_main_v46_apply, Ideal.hostDivf_def, sum2, deg2]

theorem lidx47 (d : Fin 5000) (j : Fin 256) (k : Fin 1024) : lidx_main_v47 (ix2 d j) k = ix2 d k :=
  funext fun a => match a with | ⟨0, _⟩ => rfl | ⟨1, _⟩ => rfl
theorem ridx47 (d : Fin 5000) (j : Fin 256) (k : Fin 1024) : ridx_main_v47 (ix2 d j) k = ix2 k j :=
  funext fun a => match a with | ⟨0, _⟩ => rfl | ⟨1, _⟩ => rfl
theorem lidx48 (d : Fin 5000) (j : Fin 256) (k : Fin 1024) : lidx_main_v48 (ix2 d j) k = ix2 d k :=
  funext fun a => match a with | ⟨0, _⟩ => rfl | ⟨1, _⟩ => rfl
theorem ridx48 (d : Fin 5000) (j : Fin 256) (k : Fin 1024) : ridx_main_v48 (ix2 d j) k = ix2 k j :=
  funext fun a => match a with | ⟨0, _⟩ => rfl | ⟨1, _⟩ => rfl
theorem idx27 (d : Fin 5000) (k : Fin 1024) :
    idx_main_v27 (ix2 d k) = ix2 (⟨d.val, by have := d.isLt; omega⟩ : Fin 20000) k :=
  funext fun a => match a with | ⟨0, _⟩ => rfl | ⟨1, _⟩ => rfl
theorem idx5051 (d : Fin 5000) (j : Fin 256) : idx_main_v50 (idx_main_v51 (ix2 d j)) = ix1 j :=
  funext fun a => match a with | ⟨0, _⟩ => rfl

/-- An entry of the reference's result: the destination's own hidden row against `ws2`, plus its neighbour mean
    (the hidden rows its incoming edges gather, summed from zero and divided by the clamped degree) against `wn2`,
    plus the bias. -/
theorem result_ref (x : (⟨S100000x512, .f32⟩ : BufTy).Contents (Elt Ideal))
    (ws1 wn1 : (⟨S512x1024, .f32⟩ : BufTy).Contents (Elt Ideal)) (b1 : (⟨S1024, .f32⟩ : BufTy).Contents (Elt Ideal))
    (ws2 wn2 : (⟨S1024x256, .f32⟩ : BufTy).Contents (Elt Ideal)) (b2 : (⟨S256, .f32⟩ : BufTy).Contents (Elt Ideal))
    (e0s e0d : (⟨S160000, .i32⟩ : BufTy).Contents (Elt Ideal)) (e1s e1d : (⟨S40000, .i32⟩ : BufTy).Contents (Elt Ideal))
    (d : Fin 5000) (j : Fin 256) :
    val_main_v52 (F := Ideal) x ws1 wn1 b1 ws2 wn2 b2 e0s e0d e1s e1d (ix2 d j)
      = ((∑ k : Fin 1024, val_main_v26 (F := Ideal) x ws1 wn1 b1 e0s e0d
              (ix2 (⟨d.val, by have := d.isLt; omega⟩ : Fin 20000) k) * ws2 (ix2 k j))
          + ∑ k : Fin 1024,
              Ideal.div (0 + ∑ e ∈ S (val_main_v36 (F := Ideal) e1d) d,
                  val_main_v26 (F := Ideal) x ws1 wn1 b1 e0s e0d (ix2 (row (val_main_v33 (F := Ideal) e1s) e) k))
                (D (val_main_v36 (F := Ideal) e1d) d) * wn2 (ix2 k j))
        + b2 (ix1 j) := by
  rw [val_main_v52_apply, val_main_v49_apply, val_main_v47_apply, val_main_v48_apply, val_main_v51_apply,
    val_main_v50_apply, idx5051]
  simp only [Ideal.addf_def, lidx47, ridx47, lidx48, ridx48, val_main_v27_apply, idx27, mean2]

/-! ## The first layer's neighbour means -/

/-- The first layer's edges whose destination word, read signed, is `n`. -/
def S1 (dst : IVec S160000x1 32) (n : Fin 20000) : Finset (Fin 160000) :=
  Finset.univ.filter (fun e : Fin 160000 => (dst (ix2 e (0 : Fin 1))).toInt = (n.val : Int))

/-- The row of `x` the first layer's edge `e` gathers: its source word read signed and clamped into `[0, 99999]`. -/
def row1 (src : IVec S160000x1 32) (e : Fin 160000) : Fin 100000 :=
  ⟨min (src (ix2 e (0 : Fin 1))).toInt.toNat 99999, by omega⟩

/-- The first layer's clamped degree of destination `n`. -/
def D1 (dst : IVec S160000x1 32) (n : Fin 20000) : EReal := max (0 + ∑ _e ∈ S1 dst n, (1 : EReal)) 1

theorem gather1_apply (X : FVec Ideal S100000x512 .f32) (I : IVec S160000x1 32) (e : Fin 160000) (k : Fin 512) :
    Host.gather gather_S100000x512_S160000x1_S160000x512_1_0_n_n_0_1_1512 X I (ix2 e k) = X (ix2 (row1 I e) k) :=
  Cert.Lib.ScatterGather.gather_rows_apply (N := 100000) (C := 512) (E := 160000) (by omega)
    Facts₀.gather_S100000x512_S160000x1_S160000x512_1_0_n_n_0_1_1512_wf X I e k

theorem scatRows1_apply (X : FVec Ideal S20000x512 .f32) (I : IVec S160000x1 32) (Y : FVec Ideal S160000x512 .f32)
    (n : Fin 20000) (k : Fin 512) :
    Host.scatterAdd (F := Ideal) scatter_S20000x512_S160000x1_S160000x512_1_0_0_1 X I Y (ix2 n k)
      = X (ix2 n k) + ∑ e ∈ S1 I n, Y (ix2 e k) :=
  Cert.Lib.ScatterGather.scatterAddRows_apply (N := 20000) (C := 512) (E := 160000)
    Facts₀.scatter_S20000x512_S160000x1_S160000x512_1_0_0_1_wf X I Y n k

theorem scat1_1_apply (X : FVec Ideal S20000 .f32) (I : IVec S160000x1 32) (Y : FVec Ideal S160000 .f32) (n : Fin 20000) :
    Host.scatterAdd (F := Ideal) scatter_S20000_S160000x1_S160000_n_0_0_1 X I Y (ix1 n)
      = X (ix1 n) + ∑ e ∈ S1 I n, Y (ix1 e) :=
  Cert.Lib.ScatterGather.scatterAdd1_apply (N := 20000) (E := 160000)
    Facts₀.scatter_S20000_S160000x1_S160000_n_0_0_1_wf X I Y n

/-- The first layer's degree count at `n`. -/
theorem count1 (e0d : (⟨S160000, .i32⟩ : BufTy).Contents (Elt Ideal)) (n : Fin 20000) :
    val_main_v14 (F := Ideal) e0d (ix1 n) = 0 + ∑ _e ∈ S1 (val_main_v9 (F := Ideal) e0d) n, (1 : EReal) := by
  unfold val_main_v14
  refine (scat1_1_apply _ _ _ n).trans ?_
  rw [val_main_v12_apply, val_main_cst_2_apply]
  simp only [val_main_v11_apply, val_main_cst_1_apply, Ideal.ofBits_def, Ideal.ofBits_zero_f32, ofBits_one_f32]
  rfl

theorem deg1 (e0d : (⟨S160000, .i32⟩ : BufTy).Contents (Elt Ideal)) (n : Fin 20000) (k : Fin 512) :
    val_main_v18 (F := Ideal) e0d (ix2 n k) = D1 (val_main_v9 (F := Ideal) e0d) n := by
  have hi : idx_main_v17 (idx_main_v18 (ix2 n k)) = ix1 n := funext fun a => match a with | ⟨0, _⟩ => rfl
  rw [val_main_v18_apply, val_main_v17_apply, val_main_v16_apply, val_main_v15_apply, val_main_cst_3_apply, hi, count1,
    Ideal.maximumf_def, Ideal.ofBits_def, ofBits_one_f32]
  rfl

/-- The first layer's accumulated neighbour rows at `(n, k)`. -/
theorem sum1 (x : (⟨S100000x512, .f32⟩ : BufTy).Contents (Elt Ideal))
    (e0s e0d : (⟨S160000, .i32⟩ : BufTy).Contents (Elt Ideal)) (n : Fin 20000) (k : Fin 512) :
    val_main_v10 (F := Ideal) x e0s e0d (ix2 n k)
      = 0 + ∑ e ∈ S1 (val_main_v9 (F := Ideal) e0d) n, x (ix2 (row1 (val_main_v6 (F := Ideal) e0s) e) k) := by
  unfold val_main_v10
  refine (scatRows1_apply _ _ _ n k).trans ?_
  rw [val_main_v8_apply, val_main_cst_apply, Ideal.ofBits_def, Ideal.ofBits_zero_f32]
  refine congrArg (fun t => (0 : EReal) + t) (Finset.sum_congr rfl fun e _ => ?_)
  unfold val_main_v7
  exact gather1_apply _ _ e k

/-- The first layer's neighbour mean at `(n, k)`: the rows of `x` its incoming edges gather, summed from zero and
    divided by the clamped degree. -/
theorem mean1 (x : (⟨S100000x512, .f32⟩ : BufTy).Contents (Elt Ideal))
    (e0s e0d : (⟨S160000, .i32⟩ : BufTy).Contents (Elt Ideal)) (n : Fin 20000) (k : Fin 512) :
    val_main_v19 (F := Ideal) x e0s e0d (ix2 n k)
      = Ideal.div (0 + ∑ e ∈ S1 (val_main_v9 (F := Ideal) e0d) n, x (ix2 (row1 (val_main_v6 (F := Ideal) e0s) e) k))
          (D1 (val_main_v9 (F := Ideal) e0d) n) := by
  rw [val_main_v19_apply, Ideal.hostDivf_def, sum1, deg1]

/-- A finite sum of real numbers, taken on the extended reals, is a real number. -/
theorem exists_real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨r', hr'⟩ := ih (fun i hi => h i (Finset.mem_insert_of_mem hi))
    exact ⟨r + r', by rw [Finset.sum_insert ha, hr, hr', EReal.coe_add]⟩

/-- The larger of a real number and one is a real number that is not zero. -/
theorem max_coe_one (c : ℝ) : ∃ r : ℝ, r ≠ 0 ∧ max (c : EReal) 1 = (r : EReal) := by
  rcases le_total c 1 with h | h
  · exact ⟨1, one_ne_zero, by rw [max_eq_right (by exact_mod_cast h)]; rfl⟩
  · exact ⟨c, by intro h0; rw [h0] at h; exact absurd h (by norm_num), by rw [max_eq_left (by exact_mod_cast h)]⟩

/-- A clamped degree is a real number that is not zero. -/
theorem D1_real (dst : IVec S160000x1 32) (n : Fin 20000) : ∃ r : ℝ, r ≠ 0 ∧ D1 dst n = (r : EReal) := by
  obtain ⟨c, hc⟩ := exists_real_sum (S1 dst n) (fun _ => (1 : EReal)) (fun _ _ => ⟨1, rfl⟩)
  unfold D1
  rw [hc, zero_add]
  exact max_coe_one c

/-- If every entry of `x` is a real number, so is every first-layer neighbour mean: a gathered entry is an entry of `x`,
    a finite sum of reals from zero is a real, the clamped degree is a nonzero real, and the quotient of a real by a
    nonzero real is a real. -/
theorem mean1_real (x : (⟨S100000x512, .f32⟩ : BufTy).Contents (Elt Ideal))
    (e0s e0d : (⟨S160000, .i32⟩ : BufTy).Contents (Elt Ideal)) (hx : ∀ i, ∃ r : ℝ, x i = (r : EReal)) :
    ∀ i, ∃ r : ℝ, val_main_v19 (F := Ideal) x e0s e0d i = (r : EReal) := by
  intro i
  obtain ⟨n, k, rfl⟩ : ∃ (n : Fin 20000) (k : Fin 512), i = ix2 n k := ⟨i 0, i 1, eq_ix2 i⟩
  obtain ⟨s, hs⟩ := exists_real_sum (S1 (val_main_v9 (F := Ideal) e0d) n)
    (fun e => x (ix2 (row1 (val_main_v6 (F := Ideal) e0s) e) k)) (fun e _ => hx _)
  obtain ⟨y, hy0, hy⟩ := D1_real (val_main_v9 (F := Ideal) e0d) n
  refine ⟨s * (1 / y), ?_⟩
  rw [mean1, hs, hy, zero_add, Ideal.div_coe hy0, EReal.coe_mul]

/-- The second layer's clamped degree is a real number that is not zero. -/
theorem D_real (dst : IVec S40000x1 32) (d : Fin 5000) : ∃ r : ℝ, r ≠ 0 ∧ D dst d = (r : EReal) := by
  obtain ⟨c, hc⟩ := exists_real_sum (S dst d) (fun _ => (1 : EReal)) (fun _ _ => ⟨1, rfl⟩)
  unfold D
  rw [hc, zero_add]
  exact max_coe_one c

/-- If every entry of `x`, of the first layer's two weight matrices and of its bias is a real number, so is every entry
    of the hidden array: the node's own features are entries of `x`, its neighbour means are real, the bias row holds
    entries of the bias, and the positive part of a sum of two finite contractions of reals and a real is a real. -/
theorem hidden_ref_real (x : (⟨S100000x512, .f32⟩ : BufTy).Contents (Elt Ideal))
    (ws1 wn1 : (⟨S512x1024, .f32⟩ : BufTy).Contents (Elt Ideal)) (b1 : (⟨S1024, .f32⟩ : BufTy).Contents (Elt Ideal))
    (e0s e0d : (⟨S160000, .i32⟩ : BufTy).Contents (Elt Ideal))
    (hx : ∀ i, ∃ r : ℝ, x i = (r : EReal)) (hws1 : ∀ i, ∃ r : ℝ, ws1 i = (r : EReal))
    (hwn1 : ∀ i, ∃ r : ℝ, wn1 i = (r : EReal)) (hb1 : ∀ i, ∃ r : ℝ, b1 i = (r : EReal)) :
    ∀ i, ∃ r : ℝ, val_main_v26 (F := Ideal) x ws1 wn1 b1 e0s e0d i = (r : EReal) := by
  intro i
  obtain ⟨p, q, rfl⟩ : ∃ (p : Fin 20000) (q : Fin 1024), i = ix2 p q := ⟨i 0, i 1, eq_ix2 i⟩
  rw [hidden_ref, Cert.Sage.hidden_apply]
  have hm := mean1_real x e0s e0d hx
  refine Cert.Lib.GnnLaws.IsReal.relu (Cert.Lib.GnnLaws.IsReal.add (Cert.Lib.GnnLaws.IsReal.add
    (Cert.Lib.GnnLaws.IsReal.dot _ _ (fun k => ?_) (fun k => hws1 _))
    (Cert.Lib.GnnLaws.IsReal.dot _ _ (fun k => hm _) (fun k => hwn1 _))) ?_)
  · rw [val_main_v0_apply]; exact hx _
  · rw [val_main_v23_apply]; exact hb1 _

end Cert.ReferenceIdeal.RefValue

end
-- ==== Proof.HiddenAgree.lean ====
/-
  The hidden layer of the two programs is one array.

  Both programs compute the first layer on the 20000 destination nodes from the same operands: the nodes' own rows of
  the features, the neighbour means (the same gather, the same two accumulating scatters and the same division, written
  with the same dimension records and the same literals in both programs), the two weight matrices and the bias. The
  kernel program computes it in a pipelined region, twenty blocks of a thousand rows; the reference by two whole matrix
  products, two additions and a maximum with zero. Read index by index both are the first-layer function of those
  operands. The only operand the programs spell differently is the bias: a vector reshaped to one row in the kernel
  program, the vector broadcast along a new leading axis of extent one in the reference — the same row, entry by entry.
-/
import proofs.«181733_j75350906241117_2_alg».proof.Proof.RegionHidden
import proofs.«181733_j75350906241117_2_alg».proof.Proof.KernelHost
import proofs.«181733_j75350906241117_2_alg».proof.Proof.KernelLayout
import proofs.«181733_j75350906241117_2_alg».proof.Proof.RefValue

set_option maxRecDepth 16384

noncomputable section

namespace Cert.Bridge

open Idealize.ShloMosaic Idealize.ShloMosaic.TcCoe Idealize.ShloMosaic.ValueIdx Idealize.SL.Sem

/-- The first-layer function of equal operands is equal. -/
theorem hidden_congr {d d' n n' : Cert.Sage.Mat 20000 512} {ws ws' wn wn' : Cert.Sage.Mat 512 1024} {b b' : Cert.Sage.Mat 1 1024}
    (hd : d = d') (hn : n = n') (hws : ws = ws') (hwn : wn = wn') (hb : b = b') :
    Cert.Sage.hidden d n ws wn b = Cert.Sage.hidden d' n' ws' wn' b' := by
  subst hd hn hws hwn hb; rfl

/-- The bias as one row: the reshaped vector of the kernel program is the broadcast vector of the reference. -/
theorem bias_row1_eq (b1 : FVec Ideal ⟨1, ![1024]⟩ .f32) :
    (shapeCast Cert.KernelIdeal.S1x1024 b1 Cert.KernelIdeal.Facts₀.shapeCasts_S1024_S1x1024 : Cert.Sage.Mat 1 1024)
      = Cert.ReferenceIdeal.Read.val_main_v23 (F := Ideal) b1 := by
  funext i
  obtain ⟨p, q, rfl⟩ : ∃ (p : Fin 1) (q : Fin 1024), i = ix2 p q := ⟨i 0, i 1, eq_ix2 i⟩
  obtain rfl : p = 0 := Subsingleton.elim _ _
  rw [Cert.KernelIdeal.AtIndex.bias_row1_apply, Cert.ReferenceIdeal.Read.val_main_v23_apply]
  exact congrArg b1 (funext fun a => match a with | ⟨0, _⟩ => rfl)

variable (m : (ℓ : Loc Cert.KernelIdeal.nD Cert.KernelIdeal.τ Cert.KernelIdeal.sig) → Buf (Elt Ideal) ℓ)
  (ρ : Dev Cert.KernelIdeal.nD → PrngReg)

open Cert.KernelIdeal Cert.KernelIdeal.Gen in
/-- Region 0's output array, at the contents the region is really entered with, is the reference's hidden array of the
    launch memory's arguments. -/
theorem hidden_agree (c : Dev Cert.KernelIdeal.nD) :
    ((dat0 (F := Ideal) (V1 m ρ) c).arrAt 5 cfg0.N : Cert.Sage.Mat 20000 1024)
      = Cert.ReferenceIdeal.Read.val_main_v26 (F := Ideal) (m ((c : Thread nD τ).loc main_arg0)) (m ((c : Thread nD τ).loc main_arg1))
          (m ((c : Thread nD τ).loc main_arg2)) (m ((c : Thread nD τ).loc main_arg3)) (m ((c : Thread nD τ).loc main_arg7))
          (m ((c : Thread nD τ).loc main_arg8)) := by
  rw [Cert.KernelIdeal.RegionValue.hidden_array (V1 m ρ) c, Cert.ReferenceIdeal.RefValue.hidden_ref]
  exact hidden_congr
    ((Cert.KernelIdeal.HostValue.entry0_own m ρ c).trans rfl)
    ((Cert.KernelIdeal.HostValue.entry0_mean m ρ c).trans rfl)
    (Cert.KernelIdeal.HostValue.entry0_w_self m ρ c)
    (Cert.KernelIdeal.HostValue.entry0_w_neigh m ρ c)
    ((Cert.KernelIdeal.HostValue.entry0_bias m ρ c).trans (bias_row1_eq _))

end Cert.Bridge

end
-- ==== Proof.RegionProjected.lean ====
/-
  The projection stage of the two-layer network, read off the second pallas region as ONE array.

  The region walks 20 grid points. At point `t` it stages rows `1000·t … 1000·t + 999` of the hidden features
  (20000 × 1024), the whole second-layer neighbour weight matrix (1024 × 256), multiplies the two with a zero
  accumulator, and writes the 1000 × 256 product back as rows `1000·t … 1000·t + 999` of the output. An entry of a
  block's product is a sum over the 1024 contracted coordinates of a hidden row against a weight column; the row is the
  block's row shifted by `1000·t`, the column is the weight matrix's own. So every block is the restriction of one
  function of the whole arrays, `p[i, j] = Σ_k h[i, k] · w[k, j]`, and since the 20 blocks of 1000 rows tile the 20000
  rows, the array the region leaves IS that function — the specification's `projected`.
-/
import proofs.«181733_j75350906241117_2_alg».proof.Proof.Gen.KernelIdeal.Frame
import proofs.«181733_j75350906241117_2_alg».proof.Proof.SageSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Idealize.ShloMosaic Idealize.ShloMosaic.TcCoe Idealize.ShloMosaic.ValueIdx Idealize.SL.Sem
open Idealize.ShloMosaic.Pipeline (Dat Cfg Window)

/-! ## One block's product at an entry -/

/-- The left operand is read at the output entry's row … -/
theorem lhs_row (i : S1000x256.Idx) (q : dot_S1000x1024_S1024x256_S1000x256_1_0_0_1_n_n.contr.Idx) :
    (dot_S1000x1024_S1024x256_S1000x256_1_0_0_1_n_n.lhsIdx i q 0).val = (i 0).val := by
  unfold DotDims.lhsIdx
  rw [dif_neg (show ¬(0 : Fin S1000x1024.rank) ∈ dot_S1000x1024_S1024x256_S1000x256_1_0_0_1_n_n.lhsBatch by decide), dif_pos (show (0 : Fin S1000x1024.rank) ∈ dot_S1000x1024_S1024x256_S1000x256_1_0_0_1_n_n.lhsNonContracting by decide)]
  rfl
/-- … and at the contracted coordinate in its second axis. -/
theorem lhs_contr (i : S1000x256.Idx) (q : dot_S1000x1024_S1024x256_S1000x256_1_0_0_1_n_n.contr.Idx) :
    (dot_S1000x1024_S1024x256_S1000x256_1_0_0_1_n_n.lhsIdx i q 1).val = (q ⟨0, by decide⟩).val :=
  dot_S1000x1024_S1024x256_S1000x256_1_0_0_1_n_n.lhsIdx_val_of_single rfl i q
/-- The right operand is read at the contracted coordinate in its first axis … -/
theorem rhs_contr (i : S1000x256.Idx) (q : dot_S1000x1024_S1024x256_S1000x256_1_0_0_1_n_n.contr.Idx) :
    (dot_S1000x1024_S1024x256_S1000x256_1_0_0_1_n_n.rhsIdx i q 0).val = (q ⟨0, by decide⟩).val :=
  dot_S1000x1024_S1024x256_S1000x256_1_0_0_1_n_n.rhsIdx_val_of_single rfl i q
/-- … and at the output entry's column. -/
theorem rhs_col (i : S1000x256.Idx) (q : dot_S1000x1024_S1024x256_S1000x256_1_0_0_1_n_n.contr.Idx) :
    (dot_S1000x1024_S1024x256_S1000x256_1_0_0_1_n_n.rhsIdx i q 1).val = (i 1).val := by
  unfold DotDims.rhsIdx
  rw [dif_neg (show ¬(1 : Fin S1024x256.rank) ∈ dot_S1000x1024_S1024x256_S1000x256_1_0_0_1_n_n.rhsBatch by decide), dif_pos (show (1 : Fin S1024x256.rank) ∈ dot_S1000x1024_S1024x256_S1000x256_1_0_0_1_n_n.rhsNonContracting by decide)]
  rfl

/-- The body's arithmetic on a staged block `x0` of hidden rows and the staged weights `x1`: entry `(p, q)` of the
    product into a zero accumulator is `Σ_k x0[p, k] · x1[k, q]` (the identity reshape drops out; the accumulator's
    zero is the additive unit of the extended reals). -/
theorem matmul_block_apply (x0 : FVec Ideal S1000x1024 .f32) (x1 : FVec Ideal S1024x256 .f32) (p : Fin 1000) (q : Fin 256) :
    Gen.k1_pay1 (F := Ideal) x0 x1 (ix2 p q) = ∑ k : Fin 1024, x0 (ix2 p k) * x1 (ix2 k q) := by
  unfold Gen.k1_pay1
  rw [shapeCast_self]
  refine (Ideal.matmul_constant_zero_apply dot_S1000x1024_S1024x256_S1000x256_1_0_0_1_n_n (some .fp32) x0 x1 (ix2 p q)).trans ?_
  rw [← Equiv.sum_comp (contrEquiv1 dot_S1000x1024_S1024x256_S1000x256_1_0_0_1_n_n 1024 rfl rfl).symm]
  refine Finset.sum_congr rfl fun k _ => ?_
  have hk := contrEquiv1_symm_val dot_S1000x1024_S1024x256_S1000x256_1_0_0_1_n_n 1024 rfl rfl k
  have el : dot_S1000x1024_S1024x256_S1000x256_1_0_0_1_n_n.lhsIdx (ix2 p q) ((contrEquiv1 dot_S1000x1024_S1024x256_S1000x256_1_0_0_1_n_n 1024 rfl rfl).symm k) = ix2 p k := funext fun a => Fin.ext (by
    match a with
    | ⟨0, _⟩ => exact lhs_row _ _
    | ⟨1, _⟩ => exact (lhs_contr _ _).trans hk)
  have er : dot_S1000x1024_S1024x256_S1000x256_1_0_0_1_n_n.rhsIdx (ix2 p q) ((contrEquiv1 dot_S1000x1024_S1024x256_S1000x256_1_0_0_1_n_n 1024 rfl rfl).symm k) = ix2 k q := funext fun a => Fin.ext (by
    match a with
    | ⟨0, _⟩ => exact (rhs_contr _ _).trans hk
    | ⟨1, _⟩ => exact rhs_col _ _)
  rw [el, er]

/-! ## Which rows a grid point stages -/

theorem unit_offsets : (![0, 0] : Fin 2 → Nat) = fun _ => 0 := funext fun a => by fin_cases a <;> rfl

/-- The index maps over the 20 grid points: the hidden features and the output move together, block `t` of 1000 rows at
    point `t`, all columns; the weight matrix is staged whole at every point. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-! ## From blocks to the array -/

/-- What grid point `t` writes back is block `t` of the whole-array product of the hidden features and the weights as
    the region finds them: row `p` of the block is row `1000·t + p` of the array on both sides. -/
theorem flushed_eq (c : Dev nD) (t : Fin cfg1.N) :
    (Gen.dat1 (F := Ideal) V c).flushed 2 t
      = ((cfg1.win 2).blk t).view.read (Elt Ideal) (Cert.Sage.projected (V c main_v21) (V c main_arg5)) := by
  show (cfg1.win 2).cut (grid1.coords t) ((Gen.dat1 (F := Ideal) V c).after 2 t) = _
  rw [Gen.after1_2]
  unfold Gen.out1_2
  rw [View.canon_unit_zero unit_offsets]
  simp only [View.ld_unit_zero (S := S1000x1024) unit_offsets, View.ld_unit_zero (S := S1024x256) unit_offsets]
  obtain ⟨e0, e1, e2, e3, e4, e5⟩ := block_indices t
  have hN : t.val < 20 := Gen.N_1 ▸ t.isLt
  funext j
  obtain ⟨p, q, rfl⟩ : ∃ (p : Fin 1000) (q : Fin 256), j = ix2 p q := ⟨j 0, j 1, eq_ix2 j⟩
  show Gen.k1_pay1 (F := Ideal) (Gen.iblk1 V c 0 t) (Gen.iblk1 V c 1 t) (ix2 p q)
      = Cert.Sage.projected (V c main_v21) (V c main_arg5) (((cfg1.win 2).blk t).view.emb (ix2 p q))
  have hr : t.val * 1000 + p.val < 20000 := by omega
  have hout : ((cfg1.win 2).blk t).view.emb (ix2 p q) = ix2 (⟨t.val * 1000 + p.val, hr⟩ : Fin 20000) q := by
    funext a; apply Fin.ext
    match a with
    | ⟨0, _⟩ => show win1_2.index t (0 : Fin 2) * 1000 + 1 * p.val = t.val * 1000 + p.val; omega
    | ⟨1, _⟩ => show win1_2.index t (1 : Fin 2) * 256 + 1 * q.val = q.val; omega
  rw [hout, Cert.Sage.projected_apply]
  refine (matmul_block_apply (Gen.iblk1 V c 0 t) (Gen.iblk1 V c 1 t) p q).trans ?_
  refine Finset.sum_congr rfl fun k _ => ?_
  have hrow : Gen.iblk1 V c 0 t (ix2 p k) = (V c main_v21 : S20000x1024.Idx → EReal) (ix2 (⟨t.val * 1000 + p.val, hr⟩ : Fin 20000) k) := by
    show (V c main_v21 : S20000x1024.Idx → EReal) (((cfg1.win 0).blk t).view.emb (ix2 p k)) = _
    refine congrArg _ ?_
    funext a; apply Fin.ext
    match a with
    | ⟨0, _⟩ => show win1_0.index t (0 : Fin 2) * 1000 + 1 * p.val = t.val * 1000 + p.val; omega
    | ⟨1, _⟩ => show win1_0.index t (1 : Fin 2) * 1024 + 1 * k.val = k.val; omega
  have hcol : Gen.iblk1 V c 1 t (ix2 k q) = (V c main_arg5 : S1024x256.Idx → EReal) (ix2 k q) := by
    show (V c main_arg5 : S1024x256.Idx → EReal) (((cfg1.win 1).blk t).view.emb (ix2 k q)) = _
    refine congrArg _ ?_
    funext a; apply Fin.ext
    match a with
    | ⟨0, _⟩ => show win1_1.index t (0 : Fin 2) * 1024 + 1 * k.val = k.val; omega
    | ⟨1, _⟩ => show win1_1.index t (1 : Fin 2) * 256 + 1 * q.val = q.val; omega
  rw [hrow, hcol]

/-- An index of the output array is in point `t`'s block iff each coordinate is in the block's range on its axis. -/
theorem mem_block (t : Fin cfg1.N) (i : S20000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v22).slice (win1_2.rect t)).set ↔ _
  rw [View.set_slice_whole, Rect.mem_set_unit]
  exact Iff.rfl

/-- The 20 blocks of 1000 rows tile the 20000 rows: row `r` lies in the block of point `r / 1000`. -/
theorem covered (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  have ht : (i 0).val / 1000 < cfg1.N := by rw [show cfg1.N = 20 from Gen.N_1]; omega
  refine ⟨⟨(i 0).val / 1000, ht⟩, Gen.flush1_2 _, ?_⟩
  obtain ⟨-, -, -, -, e4, e5⟩ := block_indices ⟨(i 0).val / 1000, ht⟩
  rw [mem_block]
  intro a
  match a with
  | ⟨0, _⟩ =>
    show win1_2.index ⟨(i 0).val / 1000, ht⟩ (0 : Fin 2) * 1000 ≤ (i 0).val ∧ (i 0).val < win1_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win1_2.index ⟨(i 0).val / 1000, ht⟩ (1 : Fin 2) * 256 ≤ (i 1).val ∧ (i 1).val < win1_2.index ⟨(i 0).val / 1000, ht⟩ (1 : Fin 2) * 256 + 256
    rw [e5]; omega

/-- THE ARRAY the projection region leaves: the hidden features against the second layer's neighbour weights, both
    as the region finds them. -/
theorem projected_array (c : Dev nD) :
    (Gen.dat1 (F := Ideal) V c).arrAt 2 cfg1.N = Cert.Sage.projected (V c main_v21) (V c main_arg5) :=
  (Gen.dat1 (F := Ideal) V c).arrAt_eq_of_cover 2 (Cert.Sage.projected (V c main_v21) (V c main_arg5))
    (fun t _ => flushed_eq V c t) covered

end Cert.KernelIdeal.RegionValue

end
-- ==== Proof.RegionOutput.lean ====
/-
  The second layer's combining region, from its blocks to its array.

  The region runs over 10 grid points. Point `t` holds rows `512·t … 512·t + 511` of the nodes' hidden features
  (1024 columns) and of the neighbour part that has already been projected and averaged (256 columns), the
  1024 × 256 weight matrix whole and the bias row whole, and computes for its 512 rows

      hidden · W_self + neighbour part + bias .

  Read at an entry, the product is a sum over the 1024 shared coordinates, the neighbour part is added entry by entry
  and the bias row is repeated down the rows; so row `p` of point `t`'s block is row `512·t + p` of the whole-array
  function `Cert.Sage.output` of the four arrays as the region finds them. The ten blocks tile the 5120 rows, hence the
  array the region leaves IS `output` of those arrays (`output_array`).
-/
import proofs.«181733_j75350906241117_2_alg».proof.Proof.Gen.KernelIdeal.Frame
import proofs.«181733_j75350906241117_2_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## A block of 512 rows against the weight matrix, at an entry

The contraction has one shared coordinate, of extent 1024: at output entry (row, column) and shared coordinate `k`
the left operand is read at (row, k) and the right operand at (k, column). -/

/-- The left operand's row is the output entry's row. -/
theorem output_lhs_0 (i : S512x256.Idx) (s : dot_S512x1024_S1024x256_S512x256_1_0_0_1_n_n.contr.Idx) :
    (dot_S512x1024_S1024x256_S512x256_1_0_0_1_n_n.lhsIdx i s 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- The left operand's column is the shared coordinate. -/
theorem output_lhs_1 (i : S512x256.Idx) (s : dot_S512x1024_S1024x256_S512x256_1_0_0_1_n_n.contr.Idx) :
    (dot_S512x1024_S1024x256_S512x256_1_0_0_1_n_n.lhsIdx i s 1).val = (s ⟨0, by decide⟩).val :=
  dot_S512x1024_S1024x256_S512x256_1_0_0_1_n_n.lhsIdx_val_of_single rfl i s
/-- The right operand's row is the shared coordinate. -/
theorem output_rhs_0 (i : S512x256.Idx) (s : dot_S512x1024_S1024x256_S512x256_1_0_0_1_n_n.contr.Idx) :
    (dot_S512x1024_S1024x256_S512x256_1_0_0_1_n_n.rhsIdx i s 0).val = (s ⟨0, by decide⟩).val :=
  dot_S512x1024_S1024x256_S512x256_1_0_0_1_n_n.rhsIdx_val_of_single rfl i s
/-- The right operand's column is the output entry's column. -/
theorem output_rhs_1 (i : S512x256.Idx) (s : dot_S512x1024_S1024x256_S512x256_1_0_0_1_n_n.contr.Idx) :
    (dot_S512x1024_S1024x256_S512x256_1_0_0_1_n_n.rhsIdx i s 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- One block of 512 rows against the 1024 × 256 weight matrix, accumulated onto zero: entry (p, q) is the sum over
    the 1024 shared coordinates of the products. -/
theorem output_matmul_apply (l : FVec Ideal S512x1024 .f32) (r : FVec Ideal S1024x256 .f32) (p : Fin 512) (q : Fin 256) :
    matmul dot_S512x1024_S1024x256_S512x256_1_0_0_1_n_n (some .fp32) l r (constant (F := Ideal) S512x256 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p q) ((contrEquiv1 dot_S512x1024_S1024x256_S512x256_1_0_0_1_n_n 1024 rfl rfl).symm k) = ix2 p k := funext fun a => Fin.ext (by
    match a with
    | ⟨0, _⟩ => exact output_lhs_0 _ _
    | ⟨1, _⟩ => exact (output_lhs_1 _ _).trans hk)
  have er : dot_S512x1024_S1024x256_S512x256_1_0_0_1_n_n.rhsIdx (ix2 p q) ((contrEquiv1 dot_S512x1024_S1024x256_S512x256_1_0_0_1_n_n 1024 rfl rfl).symm k) = ix2 k q := funext fun a => Fin.ext (by
    match a with
    | ⟨0, _⟩ => exact (output_rhs_0 _ _).trans hk
    | ⟨1, _⟩ => exact output_rhs_1 _ _)
  rw [el, er]

/-! ## The combining block at an entry -/

/-- What one grid point computes from its four blocks — 512 rows of hidden features `x0` and of the neighbour part
    `x1`, the weight matrix `x2` and the bias row `x3` — read at row `p`, column `q`: the contraction over the 1024
    hidden features, plus the neighbour part's entry, plus the bias entry of the column. -/
theorem output_block_apply (x0 : Vec Ideal S512x1024 .f32) (x1 : Vec Ideal S512x256 .f32) (x2 : Vec Ideal S1024x256 .f32)
    (x3 : Vec Ideal S1x256 .f32) (p : Fin 512) (q : Fin 256) :
    k2_pay1 (F := Ideal) x0 x2 x1 x3 (ix2 p q)
      = ((∑ k : Fin 1024, x0 (ix2 p k) * x2 (ix2 k q)) + x1 (ix2 p q)) + x3 (ix2 0 q) := by
  unfold k2_pay1
  simp only [shapeCast_self]
  refine congrArg₂ (· + ·) (congrArg₂ (· + ·) (output_matmul_apply x0 x2 p q) rfl)
    (broadcastTo_1b_ab_apply x3 broadcasts_S1x256_S512x256 p q)

/-- A grid point's block is the matching rows of the whole-array function: when block row `p` of the hidden
    features and of the neighbour part is row `r` of their arrays, and the weight and bias blocks are the whole
    arrays, entry (p, q) of the block is entry (r, q) of `output`. -/
theorem output_point (x0 : Vec Ideal S512x1024 .f32) (x1 : Vec Ideal S512x256 .f32) (x2 : Vec Ideal S1024x256 .f32)
    (x3 : Vec Ideal S1x256 .f32)
    (hd : Cert.Sage.Mat 5120 1024) (np : Cert.Sage.Mat 5120 256) (ws : Cert.Sage.Mat 1024 256) (b : Cert.Sage.Mat 1 256)
    (r : Fin 5120) (p : Fin 512) (q : Fin 256)
    (h0 : ∀ k : Fin 1024, x0 (ix2 p k) = hd (ix2 r k)) (h1 : x1 (ix2 p q) = np (ix2 r q))
    (h2 : ∀ k : Fin 1024, x2 (ix2 k q) = ws (ix2 k q)) (h3 : x3 (ix2 0 q) = b (ix2 0 q)) :
    k2_pay1 (F := Ideal) x0 x2 x1 x3 (ix2 p q) = Cert.Sage.output hd np ws b (ix2 r q) := by
  rw [output_block_apply, Cert.Sage.output_apply]
  simp only [h0, h1, h2, h3]

/-! ## From the blocks to the array -/

/-- The body reads and writes each of its blocks whole, from offset (0, 0). -/
theorem output_zero_offsets : (![0, 0] : Fin 2 → Nat) = fun _ => 0 := funext fun a => by fin_cases a <;> rfl

/-- The index maps over the 10 grid points: point `t` takes block row `t` of the hidden features, of the neighbour
    part and of the output, and the one block of the weight matrix and of the bias row. -/
theorem output_block_of_point : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 10 :=
  (by decide +kernel : ∀ t : Fin grid2.N, _)

variable (V : (c : Dev nD) → (b : Ref sig .tc) → Buf (Elt Ideal) ((c : Thread nD τ).loc b))

/-- WHAT POINT `t` WRITES BACK is block `t` of `output` of the arrays as the region finds them: an element of a
    block sits in its array at block index × block size + its coordinate inside the block, so block row `p` of the
    row-blocked arrays is row `512·t + p`, and the whole-array blocks are read where they stand. -/
theorem output_flushed (c : Dev nD) (t : Fin cfg2.N) :
    (dat2 (F := Ideal) V c).flushed 4 t = ((cfg2.win 4).blk t).view.read (Elt Ideal)
      (Cert.Sage.output (V c main_v43) (V c main_v44) (V c main_arg4) (V c main_v45)) := by
  show (cfg2.win 4).cut (grid2.coords t) ((dat2 V c).after 4 t) = _
  rw [after2_4]
  unfold out2_4
  rw [View.canon_unit_zero output_zero_offsets]
  simp only [View.ld_unit_zero (S := S512x1024) output_zero_offsets, View.ld_unit_zero (S := S1024x256) output_zero_offsets,
    View.ld_unit_zero (S := S512x256) output_zero_offsets, View.ld_unit_zero (S := S1x256) output_zero_offsets]
  obtain ⟨a00, a01, a10, a11, a20, a21, a30, a31, a40, a41, ht⟩ := output_block_of_point t
  funext j
  obtain ⟨p, q, rfl⟩ : ∃ (p : Fin 512) (q : Fin 256), j = ix2 p q := ⟨j 0, j 1, eq_ix2 j⟩
  show k2_pay1 (F := Ideal) (iblk2 V c 0 t) (iblk2 V c 2 t) (iblk2 V c 1 t) (iblk2 V c 3 t) (ix2 p q)
    = Cert.Sage.output (V c main_v43) (V c main_v44) (V c main_arg4) (V c main_v45) (((cfg2.win 4).blk t).view.emb (ix2 p q))
  have hr : 512 * t.val + p.val < 5120 := by omega
  have er : ((cfg2.win 4).blk t).view.emb (ix2 p q) = (ix2 (⟨512 * t.val + p.val, hr⟩ : Fin 5120) q : S5120x256.Idx) := by
    funext a; apply Fin.ext
    match a with
    | ⟨0, _⟩ => show win2_4.index t (0 : Fin 2) * 512 + 1 * p.val = 512 * t.val + p.val; omega
    | ⟨1, _⟩ => show win2_4.index t (1 : Fin 2) * 256 + 1 * q.val = q.val; omega
  rw [er]
  refine output_point (iblk2 V c 0 t) (iblk2 V c 1 t) (iblk2 V c 2 t) (iblk2 V c 3 t)
    (V c main_v43) (V c main_v44) (V c main_arg4) (V c main_v45) ⟨512 * t.val + p.val, hr⟩ p q ?_ ?_ ?_ ?_
  · intro k
    show V c main_v43 (((cfg2.win 0).blk t).view.emb (ix2 p k)) = V c main_v43 (ix2 (⟨512 * t.val + p.val, hr⟩ : Fin 5120) k)
    refine congrArg (V c main_v43) (funext fun a => Fin.ext ?_)
    match a with
    | ⟨0, _⟩ => show win2_0.index t (0 : Fin 2) * 512 + 1 * p.val = 512 * t.val + p.val; omega
    | ⟨1, _⟩ => show win2_0.index t (1 : Fin 2) * 1024 + 1 * k.val = k.val; omega
  · show V c main_v44 (((cfg2.win 1).blk t).view.emb (ix2 p q)) = V c main_v44 (ix2 (⟨512 * t.val + p.val, hr⟩ : Fin 5120) q)
    refine congrArg (V c main_v44) (funext fun a => Fin.ext ?_)
    match a with
    | ⟨0, _⟩ => show win2_1.index t (0 : Fin 2) * 512 + 1 * p.val = 512 * t.val + p.val; omega
    | ⟨1, _⟩ => show win2_1.index t (1 : Fin 2) * 256 + 1 * q.val = q.val; omega
  · intro k
    show V c main_arg4 (((cfg2.win 2).blk t).view.emb (ix2 k q)) = V c main_arg4 (ix2 k q)
    refine congrArg (V c main_arg4) (funext fun a => Fin.ext ?_)
    match a with
    | ⟨0, _⟩ => show win2_2.index t (0 : Fin 2) * 1024 + 1 * k.val = k.val; omega
    | ⟨1, _⟩ => show win2_2.index t (1 : Fin 2) * 256 + 1 * q.val = q.val; omega
  · show V c main_v45 (((cfg2.win 3).blk t).view.emb (ix2 0 q)) = V c main_v45 (ix2 0 q)
    refine congrArg (V c main_v45) (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 256 + 1 * q.val = q.val; omega

/-- An index of the output array is in point `t`'s block iff each coordinate is in the block's range on its axis. -/
theorem mem_output_block (t : Fin cfg2.N) (i : S5120x256.Idx) :
    i ∈ ((cfg2.win 4).blk t).view.set ↔ ∀ a : Fin 2, win2_4.index t a * S512x256.size a ≤ (i a).val ∧ (i a).val < win2_4.index t a * S512x256.size a + S512x256.size a := by
  show i ∈ ((View.whole main_v46).slice (win2_4.rect t)).set ↔ _
  rw [View.set_slice_whole, Rect.mem_set_unit]
  exact Iff.rfl

/-- THE SECOND LAYER'S ARRAY when the region is left: the ten blocks of 512 rows tile the 5120 rows (row `r` is in
    the block of point `r / 512`), and each block is the matching rows of `output` of the four arrays the region found
    on entry. -/
theorem output_array (c : Dev nD) :
    (dat2 (F := Ideal) V c).arrAt 4 cfg2.N
      = Cert.Sage.output (V c main_v43) (V c main_v44) (V c main_arg4) (V c main_v45) :=
  (dat2 (F := Ideal) V c).arrAt_eq_of_cover 4
    (Cert.Sage.output (V c main_v43) (V c main_v44) (V c main_arg4) (V c main_v45))
    (fun t _ => output_flushed V c t) (fun i => by
      have hi0 : (i 0).val < 5120 := (i 0).isLt
      have hi1 : (i 1).val < 256 := (i 1).isLt
      obtain ⟨t, hv⟩ : ∃ t : Fin cfg2.N, t.val = (i 0).val / 512 :=
        ⟨⟨(i 0).val / 512, by show (i 0).val / 512 < grid2.N; rw [N_2]; omega⟩, rfl⟩
      obtain ⟨a00, a01, a10, a11, a20, a21, a30, a31, a40, a41, ht⟩ := output_block_of_point t
      refine ⟨t, flush2_4 t, ?_⟩
      rw [mem_output_block]
      intro a
      match a with
      | ⟨0, _⟩ => show win2_4.index t (0 : Fin 2) * 512 ≤ (i 0).val ∧ (i 0).val < win2_4.index t (0 : Fin 2) * 512 + 512; omega
      | ⟨1, _⟩ => show win2_4.index t (1 : Fin 2) * 256 ≤ (i 1).val ∧ (i 1).val < win2_4.index t (1 : Fin 2) * 256 + 256; omega)

end Cert.KernelIdeal.RegionValue

end
-- ==== Proof.KernelHostTail.lean ====
/-
  The end of the kernel program outside its regions: what the last region finds in its two small operands, and what
  the program returns.

  The second layer's combining region reads four arrays. Two of them are inputs of the whole program or a mere
  re-reading of one:

  * its self weights are the program's 1024 × 256 weight argument itself — nothing before the region, neither a host
    operation nor an earlier region's write-back, touches an argument's buffer, so the region finds it as launched;
  * its bias row is the program's 256-entry bias vector read as a one-row matrix (a reshape, the last host operation
    before the region), and that vector too is found as launched.

  After the region one host operation remains: the result is the first 5000 of the 5120 rows of the array the region
  leaves — the 120 rows of padding are dropped.
-/
import proofs.«181733_j75350906241117_2_alg».proof.Proof.Gen.KernelIdeal.Frame
import Idealize.ShloMosaic.Lib.StableHlo.Run
import Idealize.ShloMosaic.PureOps.Ideal

noncomputable section

namespace Cert.KernelIdeal.HostValue

open Cert.KernelIdeal Cert.KernelIdeal.Gen Idealize.ShloMosaic
open Idealize.ShloMosaic.TcCoe Idealize.SL.Sem
open Idealize.ShloMosaic.Pipeline (Dat)

variable (m : (ℓ : Loc nD τ sig) → Buf (Elt Ideal) ℓ) (ρ : Dev nD → PrngReg)

/-- THE RESULT: the one host operation after the last region cuts rows 0 … 4999 (all 256 columns) out of the array
    that region leaves, which is the fold of its write-backs. -/
theorem result_buffer (c : Dev nD) :
    W10 m ρ c (Proc.devRef .tc main_v47)
      = extractStridedSlice S5000x256 ![0, 0] ((dat2 (F := Ideal) (V8 m ρ) c).arrAt 4 cfg2.N) slices_S5120x256_S5000x256_0_0 := by
  show StableHlo.after hostOps3 (W9 m ρ c) (Proc.devRef .tc main_v47) = _
  after_results
  exact congrArg (fun x => extractStridedSlice S5000x256 ![0, 0] x slices_S5120x256_S5000x256_0_0) (W9_arr m ρ c 4)

/-- The last region finds its self weights as launched: the region only reads them (an input array is left as
    entered), the final slice does not write them, and from the program's end the argument reads back to the launch. -/
theorem entry2_weights (c : Dev nD) : V8 m ρ c main_arg4 = m ((c : Thread nD τ).loc main_arg4) :=
  calc V8 m ρ c main_arg4
    _ = W9 m ρ c (Proc.devRef .tc main_arg4) :=
      ((W9_arr m ρ c 2).trans (((dat2 (V8 m ρ) c).arrAt_in 2 rfl _).trans (A_eq2 (V8 m ρ) c 2))).symm
    _ = W10 m ρ c (Proc.devRef .tc main_arg4) := (StableHlo.after_of_forall_not_mem (b := Proc.devRef .tc main_arg4) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))).symm
    _ = m ((c : Thread nD τ).loc main_arg4) := W10_main_arg4 m ρ c

/-- The bias vector, just before the reshape that reads it, is as launched: neither the reshape, nor the last region
    (which does not own it), nor the final slice writes it. -/
theorem entry2_bias_source (c : Dev nD) : W7 m ρ c (Proc.devRef .tc main_arg6) = m ((c : Thread nD τ).loc main_arg6) :=
  calc W7 m ρ c (Proc.devRef .tc main_arg6)
    _ = W8 m ρ c (Proc.devRef .tc main_arg6) := (StableHlo.after_of_forall_not_mem (b := Proc.devRef .tc main_arg6) _ _ (List.forall_iff_forall_mem.mp (by
        simp only [hostOps2_4, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))).symm
    _ = W9 m ρ c (Proc.devRef .tc main_arg6) := (W9_of_ne m ρ c main_arg6 (by decide)).symm
    _ = W10 m ρ c (Proc.devRef .tc main_arg6) := (StableHlo.after_of_forall_not_mem (b := Proc.devRef .tc main_arg6) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))).symm
    _ = m ((c : Thread nD τ).loc main_arg6) := W10_main_arg6 m ρ c

/-- The last region finds, as its bias row, the launched bias vector read as a 1 × 256 matrix. -/
theorem entry2_bias (c : Dev nD) :
    V8 m ρ c main_v45 = shapeCast S1x256 (m ((c : Thread nD τ).loc main_arg6)) shapeCasts_S256_S1x256 := by
  show StableHlo.after hostOps2_4 (W7 m ρ c) (Proc.devRef .tc main_v45) = _
  rw [← entry2_bias_source m ρ c]
  generalize W7 m ρ c = X
  after_results
  rfl

end Cert.KernelIdeal.HostValue

end
-- ==== Proof.KernelNeigh.lean ====
/-
  The kernel program's second-layer neighbour part, read at an index.

  After the hidden features have been projected to 256 columns (an array `P` of 20000 rows), the program gathers one
  projected row per edge — the row named by the edge's source word, read signed and clamped into the 20000 rows —,
  adds the gathered rows into a zero array of 5000 rows at the rows named by the edges' destination words (an edge
  whose word names no row is dropped), and divides row `d` by the clamped degree of `d`, a vector over the 5000 rows
  spread first to a column and then across the 256 columns. At row `d` and column `j` the result is therefore

      (0 + Σ_{e : the destination word of e is d} P[row of e, j]) / degree[d]

  with the zero the value of the zero word.
-/
import proofs.«181733_j75350906241117_2_alg».proof.Proof.Gen.KernelIdeal
import proofs.«181733_j75350906241117_2_alg».proof.Proof.LibScatterGather
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.KernelIdeal.AtIndex

open Cert.KernelIdeal Cert.KernelIdeal.Facts₀ Idealize.ShloMosaic Idealize.ShloMosaic.ValueIdx Cert.Lib.ScatterGather

/-- The row an edge's source word names among the 20000 rows: the word read signed, clamped into the rows. -/
def rowOf (widx : IVec S40000x1 32) (e : Fin 40000) : Fin 20000 :=
  ⟨min (widx (ix2 e (0 : Fin 1))).toInt.toNat (20000 - 1), by omega⟩

/-- The edges whose destination word, read signed, is row `d`. -/
def edgesInto (dcol : IVec S40000x1 32) (d : Fin 5000) : Finset (Fin 40000) :=
  Finset.univ.filter (fun e : Fin 40000 => (dcol (ix2 e (0 : Fin 1))).toInt = (d.val : Int))

/-- The zero array the rows are added into, at any index. -/
theorem zeros_apply (i : S5000x256.Idx) :
    broadcastInDim S5000x256 ![] bcast_S_S5000x256 (constant (F := Ideal) S_ .f32 0x00000000#32) i = 0 := by
  rw [broadcastInDim_apply _ bcast_S_S5000x256 (constant (F := Ideal) S_ .f32 0x00000000#32) i ix0 (fun a => a.elim0)]
  show Ideal.ofBits .f32 0x00000000#32 = 0
  exact Ideal.ofBits_zero_f32

/-- The degree vector spread to a column and then across the columns, at row `d`, column `j`, is its entry `d`. -/
theorem degree_spread_apply (deg : FVec Ideal S5000 .f32) (d : Fin 5000) (j : Fin 256) :
    broadcastInDim S5000x256 ![0, 1] bcast_S5000x1_S5000x256_0_1 (broadcastInDim S5000x1 ![0] bcast_S5000_S5000x1_0 deg) (ix2 d j)
      = deg (ix1 d) := by
  rw [broadcastInDim_apply _ bcast_S5000x1_S5000x256_0_1 _ (ix2 d j) (ix2 d (0 : Fin 1)) (fun a => match a with
    | ⟨0, _⟩ => by show d.val = if (5000 : Nat) = 1 then 0 else d.val; rw [if_neg (by decide)]
    | ⟨1, _⟩ => by show 0 = if (1 : Nat) = 1 then 0 else j.val; rw [if_pos rfl])]
  exact broadcastInDim_apply _ bcast_S5000_S5000x1_0 deg (ix2 d (0 : Fin 1)) (ix1 d) (fun a => match a with
    | ⟨0, _⟩ => by show d.val = if (5000 : Nat) = 1 then 0 else d.val; rw [if_neg (by decide)])

/-- A gathered projected row: edge `e`'s entry in column `j` is `P` at the row its source word names. -/
theorem gathered_apply (P : FVec Ideal S20000x256 .f32) (widx : IVec S40000x1 32) (e : Fin 40000) (j : Fin 256) :
    Host.gather gather_S20000x256_S40000x1_S40000x256_1_0_n_n_0_1_1256 P widx (ix2 e j) = P (ix2 (rowOf widx e) j) :=
  gather_rows_apply (N := 20000) (C := 256) (E := 40000) (by decide)
    gather_S20000x256_S40000x1_S40000x256_1_0_n_n_0_1_1256.wf P widx e j

/-- The neighbour part at row `d`, column `j`: the gathered projected rows of the edges into `d`, added up from zero and
    divided by the degree entry of `d`. -/
theorem neighbour_part_apply (P : FVec Ideal S20000x256 .f32) (widx dcol : IVec S40000x1 32) (deg : FVec Ideal S5000 .f32)
    (d : Fin 5000) (j : Fin 256) :
    Host.divf
        (Host.scatterAdd scatter_S5000x256_S40000x1_S40000x256_1_0_0_1
          (broadcastInDim S5000x256 ![] bcast_S_S5000x256 (constant (F := Ideal) S_ .f32 0x00000000#32)) dcol
          (Host.gather gather_S20000x256_S40000x1_S40000x256_1_0_n_n_0_1_1256 P widx))
        (broadcastInDim S5000x256 ![0, 1] bcast_S5000x1_S5000x256_0_1 (broadcastInDim S5000x1 ![0] bcast_S5000_S5000x1_0 deg))
        (ix2 d j)
      = Ideal.div (0 + ∑ e ∈ edgesInto dcol d, P (ix2 (rowOf widx e) j)) (deg (ix1 d)) := by
  show Ideal.div _ _ = _
  rw [degree_spread_apply deg d j]
  refine congrArg (fun s => Ideal.div s (deg (ix1 d))) ?_
  refine (scatterAddRows_apply (N := 5000) (C := 256) (E := 40000)
    scatter_S5000x256_S40000x1_S40000x256_1_0_0_1.wf _ dcol _ d j).trans ?_
  rw [zeros_apply]
  refine congrArg (fun s => (0 : EReal) + s) ?_
  exact Finset.sum_congr rfl fun e _ => gathered_apply P widx e j

end Cert.KernelIdeal.AtIndex

end
-- ==== Proof.KernelEntry.lean ====
/-
  The kernel program's result entry.

  The program's result is the first 5000 rows of the second layer's combination on 5120 rows, whose operands are: the
  first 5000 hidden rows padded to 5120; the neighbour part — the projected rows gathered per edge, added up per
  destination row and divided by the clamped degree — padded to 5120; the self weights; the bias as one row. At a row
  `d` below 5000 and a column `j` the padding is never read, so the entry is

      Σ_k h[d,k]·ws[k,j]  +  (0 + Σ_{e into d} projected[row of e, j]) / degree[d]  +  b[j].
-/
import proofs.«181733_j75350906241117_2_alg».proof.Proof.KernelNeigh
import proofs.«181733_j75350906241117_2_alg».proof.Proof.KernelLayout
import proofs.«181733_j75350906241117_2_alg».proof.Proof.SageSpec

noncomputable section

open scoped BigOperators

namespace Cert.KernelIdeal.AtIndex

open Cert.KernelIdeal Cert.KernelIdeal.Facts₀ Idealize.ShloMosaic Idealize.ShloMosaic.ValueIdx

/-- The result's entry at row `d`, column `j`, from the hidden array `h`, the projected array `P`, the self weights, the
    bias vector, the two index columns and the degree vector (`v`, `v'` are the pads' fill values, never read here). -/
theorem result_entry (h : FVec Ideal S20000x1024 .f32) (P : FVec Ideal S20000x256 .f32) (ws : FVec Ideal S1024x256 .f32)
    (b : FVec Ideal S256 .f32) (widx dcol : IVec S40000x1 32) (deg : FVec Ideal S5000 .f32) (v v' : FVec Ideal S_ .f32)
    (d : Fin 5000) (j : Fin 256) :
    extractStridedSlice S5000x256 ![0, 0]
        (Cert.Sage.output
          (pad S5120x1024 ![0, 0] ![120, 0] ![0, 0]
            (extractStridedSlice S5000x1024 ![0, 0] h slices_S20000x1024_S5000x1024_0_0) v pads_S5000x1024_S5120x1024_01200_000 h_S_)
          (pad S5120x256 ![0, 0] ![120, 0] ![0, 0]
            (Host.divf
              (Host.scatterAdd scatter_S5000x256_S40000x1_S40000x256_1_0_0_1
                (broadcastInDim S5000x256 ![] bcast_S_S5000x256 (constant (F := Ideal) S_ .f32 0x00000000#32)) dcol
                (Host.gather gather_S20000x256_S40000x1_S40000x256_1_0_n_n_0_1_1256 P widx))
              (broadcastInDim S5000x256 ![0, 1] bcast_S5000x1_S5000x256_0_1 (broadcastInDim S5000x1 ![0] bcast_S5000_S5000x1_0 deg)))
            v' pads_S5000x256_S5120x256_01200_000 h_S_)
          ws (shapeCast S1x256 b shapeCasts_S256_S1x256))
        slices_S5120x256_S5000x256_0_0 (ix2 d j)
      = ((∑ k : Fin 1024, h (ix2 ⟨d.val, by omega⟩ k) * ws (ix2 k j))
          + Ideal.div (0 + ∑ e ∈ edgesInto dcol d, P (ix2 (rowOf widx e) j)) (deg (ix1 d))) + b (ix1 j) := by
  rw [first_rows_output_apply, Cert.Sage.output_apply, padded_neighbour_apply, neighbour_part_apply, bias_row_apply]
  refine congrArg (fun s => (s + Ideal.div (0 + ∑ e ∈ edgesInto dcol d, P (ix2 (rowOf widx e) j)) (deg (ix1 d))) + b (ix1 j)) ?_
  refine Finset.sum_congr rfl fun k _ => ?_
  rw [padded_hidden_apply, first_rows_hidden_apply]

end Cert.KernelIdeal.AtIndex

end
-- ==== Proof.SageLaw.lean ====
/-
  Averaging and projecting commute on real entries.

  A node's neighbour part in a mean-aggregating layer is the average of its in-neighbours' feature rows, sent through a
  weight matrix. It can be computed in two orders: average the rows, then contract the average with a column of the
  weights; or contract every row with that column first and average the contracted numbers. With `S` the set of edges
  into the node, `a e k` feature `k` of edge `e`'s source row, `w k` the weight column and `D` the divisor,

      (Σ_{e ∈ S} Σ_k a e k · w k) / D  =  Σ_k ((Σ_{e ∈ S} a e k) / D) · w k.

  Over the reals this is linearity of the sum. On the extended reals a product does not distribute over a sum at the
  infinities, so the law is stated for entries that are real numbers and a real nonzero divisor: the entries' real
  witnesses are chosen, every coercion is pushed outward, and what remains is the identity over the reals.
  The divisor of the programs is the clamped in-degree `max (Σ_{e ∈ S} 1) 1`: a real number that is at least one.
-/
import proofs.«181733_j75350906241117_2_alg».proof.Proof.LibGnnLaws
import proofs.«181733_j75350906241117_2_alg».proof.Proof.SageSpec

noncomputable section

open scoped BigOperators

namespace Cert.Sage

open Idealize.ShloMosaic Idealize.ShloMosaic.ValueIdx Cert.Lib.GnnLaws

/-- The average of contracted rows is the contraction of the averaged row, for real entries and a real nonzero divisor. -/
theorem mean_of_projected {E K : Type*} [Fintype K] (S : Finset E) (a : E → K → EReal) (w : K → EReal) {D : ℝ} (hD : D ≠ 0)
    (ha : ∀ e k, IsReal (a e k)) (hw : ∀ k, IsReal (w k)) :
    Ideal.div (∑ e ∈ S, ∑ k, a e k * w k) (D : EReal) = ∑ k, Ideal.div (∑ e ∈ S, a e k) (D : EReal) * w k := by
  obtain ⟨a', ha'⟩ := exists_real_fun₂ a ha
  obtain ⟨w', hw'⟩ := exists_real_fun w hw
  simp only [ha', hw', Ideal.div_coe hD, ← EReal.coe_mul, ← coe_sum]
  refine congrArg (fun r : ℝ => (r : EReal)) ?_
  rw [Finset.sum_comm, Finset.sum_mul]
  refine Finset.sum_congr rfl fun k _ => ?_
  rw [← Finset.sum_mul]
  ring

/-- The clamped in-degree — the number of edges into a node, counted as a sum of ones, or one if there is none — is a
    real number different from zero. -/
theorem clamped_degree_real {E : Type*} (S : Finset E) : ∃ r : ℝ, r ≠ 0 ∧ max (∑ _e ∈ S, (1 : EReal)) 1 = (r : EReal) := by
  refine ⟨max (S.card : ℝ) 1, ?_, ?_⟩
  · have : (1 : ℝ) ≤ max (S.card : ℝ) 1 := le_max_right _ _
    intro h; rw [h] at this; norm_num at this
  · have hs : (∑ _e ∈ S, (1 : EReal)) = ((S.card : ℝ) : EReal) := by
      have h := coe_sum S (fun _ => (1 : ℝ))
      rw [Finset.sum_const, nsmul_eq_mul, mul_one] at h
      rw [h]; rfl
    rw [hs, ← EReal.coe_one]
    exact (EReal.coe_strictMono.monotone.map_max).symm

/-- The second layer at one destination row, in its two arrangements. `S` is the set of edges into the row, `row e` the
    hidden row edge `e` gathers, `own` the row's own hidden features against the self weights, `bias` the bias entry. On
    the left the gathered rows are projected first (`projected h wn`) and the projected numbers averaged; on the right the
    gathered rows are averaged and the average is contracted with the weight column. Both add the sum from the value
    zero and divide by the clamped degree. For real hidden features and real weights the two are one number. -/
theorem second_layer_agree (h : Mat 20000 1024) (wn : Mat 1024 256) (hh : ∀ i, IsReal (h i)) (hw : ∀ i, IsReal (wn i))
    (S : Finset (Fin 40000)) (row : Fin 40000 → Fin 20000) (j : Fin 256) (own bias : EReal) :
    (own + Ideal.div (0 + ∑ e ∈ S, projected h wn (ix2 (row e) j)) (max (∑ _e ∈ S, (1 : EReal)) 1)) + bias
      = (own + ∑ k : Fin 1024, Ideal.div (0 + ∑ e ∈ S, h (ix2 (row e) k)) (max (∑ _e ∈ S, (1 : EReal)) 1) * wn (ix2 k j)) + bias := by
  obtain ⟨r, hr0, hr⟩ := clamped_degree_real S
  rw [hr]
  simp only [zero_add, projected_apply]
  rw [mean_of_projected S (fun e k => h (ix2 (row e) k)) (fun k => wn (ix2 k j)) hr0 (fun e k => hh _) (fun k => hw _)]

end Cert.Sage

end
-- ==== Proof.ResultAgree.lean ====
/-
  The two programs' results are one array.

  The kernel program's result is read off its run: the last slice of region 2's output array, whose operands are the
  padded first 5000 hidden rows, the padded neighbour part, the self weights and the bias row; the neighbour part is
  built from region 1's output (the hidden array projected to 256 columns), and the hidden array is region 0's output,
  which is the reference's hidden array. So at a row `d` below 5000 and a column `j` the kernel program's entry is

      Σ_k h[d,k]·ws[k,j] + (0 + Σ_{e into d} (Σ_k h[row e,k]·wn[k,j])) / D_d + b[j]

  and the reference's is

      Σ_k h[d,k]·ws[k,j] + Σ_k ((0 + Σ_{e into d} h[row e,k]) / D_d)·wn[k,j] + b[j],

  with the same hidden array `h`, the same edges into `d` (the two programs build the destination column by the same
  broadcast), the same gathered row per edge (the same wrapped source column) and the same clamped degree `D_d`. The
  hidden features are real because the float inputs are finite, the weights are real for the same reason, and the
  clamped degree is a real number that is at least one: averaging and projecting then commute.
-/
import proofs.«181733_j75350906241117_2_alg».proof.Proof.HiddenAgree
import proofs.«181733_j75350906241117_2_alg».proof.Proof.RegionProjected
import proofs.«181733_j75350906241117_2_alg».proof.Proof.RegionOutput
import proofs.«181733_j75350906241117_2_alg».proof.Proof.KernelHostTail
import proofs.«181733_j75350906241117_2_alg».proof.Proof.KernelEntry
import proofs.«181733_j75350906241117_2_alg».proof.Proof.SageLaw

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen Cert.KernelIdeal.Facts₀ Cert.KernelIdeal.HostValue Cert.KernelIdeal.AtIndex
open Cert.Lib.GnnLaws (IsReal)

variable (m : (ℓ : Loc nD τ sig) → Buf (Elt Ideal) ℓ) (ρ : Dev nD → PrngReg)

/-- The kernel program's result array, as its run leaves it, is the reference's result stage of the launch memory's
    arguments, when the arguments the hidden layer and the neighbour projection read have real entries. -/
theorem result_agree (c : Dev nD)
    (hx : ∀ i, ∃ r : ℝ, m ((c : Thread nD τ).loc main_arg0) i = (r : EReal))
    (hws1 : ∀ i, ∃ r : ℝ, m ((c : Thread nD τ).loc main_arg1) i = (r : EReal))
    (hwn1 : ∀ i, ∃ r : ℝ, m ((c : Thread nD τ).loc main_arg2) i = (r : EReal))
    (hb1 : ∀ i, ∃ r : ℝ, m ((c : Thread nD τ).loc main_arg3) i = (r : EReal))
    (hwn2 : ∀ i, ∃ r : ℝ, m ((c : Thread nD τ).loc main_arg5) i = (r : EReal)) :
    (W10 m ρ c (Proc.devRef .tc main_v47) : S5000x256.Idx → EReal)
      = Cert.ReferenceIdeal.Read.val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  -- the hidden array, the projected array and region 2's operands, in terms of the reference's hidden array
  have hH := hidden_agree m ρ c
  have hP : ((dat1 (F := Ideal) (V2 m ρ) c).arrAt 2 cfg1.N : Cert.Sage.Mat 20000 256)
      = Cert.Sage.projected (Cert.ReferenceIdeal.Read.val_main_v26 (F := Ideal) (m ((c : Thread nD τ).loc main_arg0))
          (m ((c : Thread nD τ).loc main_arg1)) (m ((c : Thread nD τ).loc main_arg2)) (m ((c : Thread nD τ).loc main_arg3))
          (m ((c : Thread nD τ).loc main_arg7)) (m ((c : Thread nD τ).loc main_arg8))) (m ((c : Thread nD τ).loc main_arg5)) :=
    (Cert.KernelIdeal.RegionValue.projected_array (V2 m ρ) c).trans
      (congr (congrArg Cert.Sage.projected ((entry1_hidden m ρ c).trans hH)) (entry1_weights m ρ c))
  have e43 := (entry2_own m ρ c).trans (congrArg ownHidden2 hH)
  have e44 := (entry2_mean m ρ c).trans
    (congrArg (fun p => neighbourMean2 p (m ((c : Thread nD τ).loc main_arg9)) (m ((c : Thread nD τ).loc main_arg10))) hP)
  have hO := (Cert.KernelIdeal.RegionValue.output_array (V8 m ρ) c).trans
    (congr (congr (congr (congrArg Cert.Sage.output e43) e44) (entry2_weights m ρ c)) (entry2_bias m ρ c))
  rw [result_buffer m ρ c, hO]
  -- index by index
  funext i
  obtain ⟨d, j, rfl⟩ : ∃ (d : Fin 5000) (j : Fin 256), i = ix2 d j := ⟨i 0, i 1, eq_ix2 i⟩
  rw [Cert.ReferenceIdeal.RefValue.result_ref]
  unfold ownHidden2 neighbourMean2
  rw [result_entry, clamped_degree_apply]
  -- the two programs name the same edges, the same gathered rows and the same hidden array
  have hS : edgesInto (broadcastInDim S40000x1 ![0] Cert.KernelIdeal.Facts₀.bcast_S40000_S40000x1_0 (m ((c : Thread nD τ).loc main_arg10))) d
      = Cert.ReferenceIdeal.RefValue.S (Cert.ReferenceIdeal.Read.val_main_v36 (F := Ideal) (m ((c : Thread nD τ).loc main_arg10))) d := rfl
  have hrow : rowOf (wrapIndex40000 20000#32 (m ((c : Thread nD τ).loc main_arg9)))
      = Cert.ReferenceIdeal.RefValue.row (Cert.ReferenceIdeal.Read.val_main_v33 (F := Ideal) (m ((c : Thread nD τ).loc main_arg9))) :=
    funext fun e => rfl
  have hh := Cert.ReferenceIdeal.RefValue.hidden_ref_real _ _ _ _ (m ((c : Thread nD τ).loc main_arg7))
    (m ((c : Thread nD τ).loc main_arg8)) hx hws1 hwn1 hb1
  generalize Cert.ReferenceIdeal.Read.val_main_v26 (F := Ideal) (m ((c : Thread nD τ).loc main_arg0))
    (m ((c : Thread nD τ).loc main_arg1)) (m ((c : Thread nD τ).loc main_arg2)) (m ((c : Thread nD τ).loc main_arg3))
    (m ((c : Thread nD τ).loc main_arg7)) (m ((c : Thread nD τ).loc main_arg8)) = h at hh ⊢
  rw [hS, hrow]
  refine (Cert.Sage.second_layer_agree h (m ((c : Thread nD τ).loc main_arg5)) hh hwn2
    (Cert.ReferenceIdeal.RefValue.S (Cert.ReferenceIdeal.Read.val_main_v36 (F := Ideal) (m ((c : Thread nD τ).loc main_arg10))) d)
    (Cert.ReferenceIdeal.RefValue.row (Cert.ReferenceIdeal.Read.val_main_v33 (F := Ideal) (m ((c : Thread nD τ).loc main_arg9)))) j
    (∑ k : Fin 1024, h (ix2 ⟨d.val, by omega⟩ k) * m ((c : Thread nD τ).loc main_arg4) (ix2 k j))
    (m ((c : Thread nD τ).loc main_arg6) (ix1 j))).trans ?_
  simp only [Cert.ReferenceIdeal.RefValue.D, zero_add]

end Cert.Bridge

end
-- ==== Proof.lean ====
/-
  A two-layer mean-aggregating graph network: the kernel program against its reference.

  Each layer sends a destination node's own features through one weight matrix and the mean of its in-neighbours'
  features through another, and adds a bias; the first layer is followed by a maximum with zero. The neighbour mean is
  a gather of source rows along an edge list, an accumulating scatter of the gathered rows into the destination rows,
  a count of each destination's edges, and a division by that count taken as at least one.

  The first layer is the same computation in both programs: the kernel program runs its dense part in a pipelined
  region of twenty blocks of a thousand rows, the reference as two whole matrix products. In the second layer the
  programs differ in order. The reference averages the gathered hidden rows (1024 wide) and multiplies the average by
  the neighbour weights; the kernel program multiplies every hidden row by the neighbour weights first (a second
  region) and averages the gathered products (256 wide); a third region adds the own rows against the self weights and
  the bias on rows padded from 5000 to 5120, and the padding is cut off again. On the extended reals — where a float
  is a real number or an infinity and a product does not distribute over a sum at the infinities — the two orders
  agree because the precondition makes every float input finite: the hidden features are then real numbers, the
  clamped degree is a real number that is at least one, and averaging commutes with the projection by linearity.

  The claims: each program runs to the end without a fault and leaves its arguments as launched (the kernel programs'
  frames are the launch of their three regions among the stretches of host operations; the reference's is its run
  with the result dropped); the idealized kernel program is the kernel program's own text read on the extended reals
  (no operation was rewritten); and the two idealized programs, from memories that agree on the arguments, end with
  equal result arrays, entry by entry.
-/
import proofs.«181733_j75350906241117_2_alg».proof.Defs
import proofs.«181733_j75350906241117_2_alg».proof.Proof.Gen.Kernel
import proofs.«181733_j75350906241117_2_alg».proof.Proof.Gen.Kernel.Skeleton
import proofs.«181733_j75350906241117_2_alg».proof.Proof.Gen.Kernel.Launch
import proofs.«181733_j75350906241117_2_alg».proof.Proof.Gen.Kernel.Points
import proofs.«181733_j75350906241117_2_alg».proof.Proof.Gen.Kernel.Frame
import proofs.«181733_j75350906241117_2_alg».proof.Proof.Gen.KernelIdeal
import proofs.«181733_j75350906241117_2_alg».proof.Proof.Gen.KernelIdeal.Skeleton
import proofs.«181733_j75350906241117_2_alg».proof.Proof.Gen.KernelIdeal.Launch
import proofs.«181733_j75350906241117_2_alg».proof.Proof.Gen.KernelIdeal.Points
import proofs.«181733_j75350906241117_2_alg».proof.Proof.Gen.KernelIdeal.Frame
import proofs.«181733_j75350906241117_2_alg».proof.Proof.Gen.ReferenceIdeal
import proofs.«181733_j75350906241117_2_alg».proof.Proof.Gen.Pre_finite_inputs
import proofs.«181733_j75350906241117_2_alg».proof.Proof.Gen.ReferenceIdeal.Run
import proofs.«181733_j75350906241117_2_alg».proof.Proof.Gen.ReferenceIdeal.Read
import proofs.«181733_j75350906241117_2_alg».proof.Proof.KernelRun
import proofs.«181733_j75350906241117_2_alg».proof.Proof.FiniteInputs
import proofs.«181733_j75350906241117_2_alg».proof.Proof.ResultAgree
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel program was rewritten for the extended reals: nothing to preserve. -/
theorem preserves : Cert.preserves_Kernel_KernelIdeal := trivial

/-- From memories that agree on the arguments both idealized programs end, the kernel program's result at the fold of
    its segments read at the result buffer, the reference's at its result stage of the same arguments; finite inputs
    make the two one array. -/
theorem algebraic : Cert.algebraic_KernelIdeal_ReferenceIdeal := by
  intro m ρ m' ρ' hpre hagree
  refine ⟨fun c => Cert.KernelIdeal.Gen.W10 m ρ c (Proc.devRef .tc Cert.KernelIdeal.main_v47),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨h0, h1, h2, h3, h4, h5, h6, h7, h8, h9, h10⟩ := hagree c
  rw [h0, h1, h2, h3, h4, h5, h6, h7, h8, h9, h10]
  obtain ⟨hx, hws1, hwn1, hb1, -, hwn2, -⟩ := Cert.Finite.of_pre m hpre c
  exact (Cert.Bridge.result_agree m ρ c hx hws1 hwn1 hb1 hwn2).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
